-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S2x32 : Shape := ⟨2, ![2, 32]⟩
abbrev S32x32 : Shape := ⟨2, ![32, 32]⟩
abbrev S32x2 : Shape := ⟨2, ![32, 2]⟩
abbrev S32x1 : Shape := ⟨2, ![32, 1]⟩
abbrev S32 : Shape := ⟨1, ![32]⟩
abbrev S2 : Shape := ⟨1, ![2]⟩
abbrev S1 : Shape := ⟨1, ![1]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S2 : S_.BroadcastsInDim S2 (![] : Fin 0 → Fin S2.rank)
  reducesTo_S2_S_d0 : S2.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S32 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32 .f32) (main_arg8 : FVec F S32 .f32) (main_arg9 : FVec F S2 .f32) (main_arg10 : FVec F S32 .f32) (main_arg11 : FVec F S32 .f32) (main_arg12 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S2x32 .f32) (main_arg5 : FVec F S32x32 .f32) (main_arg6 : FVec F S32x1 .f32) (main_arg7 : FVec F S32 .f32) (main_arg8 : FVec F S32 .f32) (main_arg9 : FVec F S2 .f32) (main_arg10 : FVec F S32 .f32) (main_arg11 : FVec F S32 .f32) (main_arg12 : FVec F S1 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2x32 .f32 := Host.absf main_arg4
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1048576x2 .f32) (main_arg1 : FVec F S2x32 .f32) (main_arg2 : FVec F S32x32 .f32) (main_arg3 : FVec F S32x2 .f32) (main_arg4 : FVec F S2x32 .f32) (main_arg5 : FVec F S32x32 .f32) (main_arg6 : FVec F S32x1 .f32) (main_arg7 : FVec F S32 .f32) (main_arg8 : FVec F S32 .f32) (main_arg9 : FVec F S2 .f32) (main_arg10 : FVec F S32 .f32) (main_arg11 : FVec F S32 .f32) (main_arg12 : FVec F S1 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x2 .f32 := Host.absf main_arg3
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg4 main_arg5 main_arg6 main_arg7 main_arg8 main_arg9 main_arg10 main_arg11 main_arg12 main_v13 main_v16
-- ==== Kernel.lean ====
abbrev S1048576x2 : Shape := ⟨2, ![1048576, 2]⟩
abbrev S2x32 : Shape := ⟨2, ![2, 32]⟩
abbrev S32x32 : Shape := ⟨2, ![32, 32]⟩
abbrev S32x2 : Shape := ⟨2, ![32, 2]⟩
abbrev S32x1 : Shape := ⟨2, ![32, 1]⟩
abbrev S32 : Shape := ⟨1, ![32]⟩
abbrev S2 : Shape := ⟨1, ![2]⟩
abbrev S1 : Shape := ⟨1, ![1]⟩
abbrev S2x1048576 : Shape := ⟨2, ![2, 1048576]⟩
abbrev S1x32 : Shape := ⟨2, ![1, 32]⟩
abbrev S2x1 : Shape := ⟨2, ![2, 1]⟩
abbrev S1x1 : Shape := ⟨2, ![1, 1]⟩
abbrev S2x8192 : Shape := ⟨2, ![2, 8192]⟩
abbrev S32x8192 : Shape := ⟨2, ![32, 8192]⟩
abbrev S1x8192 : Shape := ⟨2, ![1, 8192]⟩

abbrev nBuf : Space → Nat
  | .hbm => 30
  | .vmem => 17
  | .smem => 0
  | _ => 0

abbrev bufTy : (tb : Table) → Fin (tcTables nBuf tb) → BufTy
  | .hbm, ⟨0, _⟩ => ⟨S1048576x2, .f32⟩
  | .hbm, ⟨1, _⟩ => ⟨S2x32, .f32⟩
  | .hbm, ⟨2, _⟩ => ⟨S32x32, .f32⟩
  | .hbm, ⟨3, _⟩ => ⟨S32x2, .f32⟩
  | .hbm, ⟨4, _⟩ => ⟨S2x32, .f32⟩
  | .hbm, ⟨5, _⟩ => ⟨S32x32, .f32⟩
  | .hbm, ⟨6, _⟩ => ⟨S32x1, .f32⟩
  | .hbm, ⟨7, _⟩ => ⟨S32, .f32⟩
  | .hbm, ⟨8, _⟩ => ⟨S32, .f32⟩
  | .hbm, ⟨9, _⟩ => ⟨S2, .f32⟩
  | .hbm, ⟨10, _⟩ => ⟨S32, .f32⟩
  | .hbm, ⟨11, _⟩ => ⟨S32, .f32⟩
  | .hbm, ⟨12, _⟩ => ⟨S1, .f32⟩
  | .hbm, ⟨13, _⟩ => ⟨S2, .f32⟩
  | .hbm, ⟨14, _⟩ => ⟨S2x1048576, .f32⟩
  | .hbm, ⟨15, _⟩ => ⟨S32x2, .f32⟩
  | .hbm, ⟨16, _⟩ => ⟨S32x32, .f32⟩
  | .hbm, ⟨17, _⟩ => ⟨S2x32, .f32⟩
  | .hbm, ⟨18, _⟩ => ⟨S32x2, .f32⟩
  | .hbm, ⟨19, _⟩ => ⟨S32x32, .f32⟩
  | .hbm, ⟨20, _⟩ => ⟨S1x32, .f32⟩
  | .hbm, ⟨21, _⟩ => ⟨S32x1, .f32⟩
  | .hbm, ⟨22, _⟩ => ⟨S32x1, .f32⟩
  | .hbm, ⟨23, _⟩ => ⟨S2x1, .f32⟩
  | .hbm, ⟨24, _⟩ => ⟨S32x1, .f32⟩
  | .hbm, ⟨25, _⟩ => ⟨S32x1, .f32⟩
  | .hbm, ⟨26, _⟩ => ⟨S1x1, .f32⟩
  | .hbm, ⟨27, _⟩ => ⟨S2x1, .f32⟩
  | .hbm, ⟨28, _⟩ => ⟨S2x1048576, .f32⟩
  | .hbm, ⟨29, _⟩ => ⟨S1048576x2, .f32⟩
  | .local _ .vmem, ⟨0, _⟩ => ⟨S2x8192, .f32⟩
  | .local _ .vmem, ⟨1, _⟩ => ⟨S2x8192, .f32⟩
  | .local _ .vmem, ⟨2, _⟩ => ⟨S32x2, .f32⟩
  | .local _ .vmem, ⟨3, _⟩ => ⟨S32x32, .f32⟩
  | .local _ .vmem, ⟨4, _⟩ => ⟨S2x32, .f32⟩
  | .local _ .vmem, ⟨5, _⟩ => ⟨S32x2, .f32⟩
  | .local _ .vmem, ⟨6, _⟩ => ⟨S32x32, .f32⟩
  | .local _ .vmem, ⟨7, _⟩ => ⟨S1x32, .f32⟩
  | .local _ .vmem, ⟨8, _⟩ => ⟨S32x1, .f32⟩
  | .local _ .vmem, ⟨9, _⟩ => ⟨S32x1, .f32⟩
  | .local _ .vmem, ⟨10, _⟩ => ⟨S2x1, .f32⟩
  | .local _ .vmem, ⟨11, _⟩ => ⟨S32x1, .f32⟩
  | .local _ .vmem, ⟨12, _⟩ => ⟨S32x1, .f32⟩
  | .local _ .vmem, ⟨13, _⟩ => ⟨S1x1, .f32⟩
  | .local _ .vmem, ⟨14, _⟩ => ⟨S2x1, .f32⟩
  | .local _ .vmem, ⟨15, _⟩ => ⟨S2x8192, .f32⟩
  | .local _ .vmem, ⟨16, _⟩ => ⟨S2x8192, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S1048576x2_S2x1048576_1_0 : S1048576x2.Transposes [1, 0] S2x1048576
  transposes_S2x32_S32x2_1_0 : S2x32.Transposes [1, 0] S32x2
  transposes_S32x32_S32x32_1_0 : S32x32.Transposes [1, 0] S32x32
  transposes_S32x2_S2x32_1_0 : S32x2.Transposes [1, 0] S2x32
  transposes_S32x1_S1x32_1_0 : S32x1.Transposes [1, 0] S1x32
  shapeCasts_S32_S32x1 : S32.ShapeCasts S32x1
  shapeCasts_S2_S2x1 : S2.ShapeCasts S2x1
  shapeCasts_S1_S1x1 : S1.ShapeCasts S1x1
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  bitsLt_bf16_f32 : FTy.bits .bf16 < FTy.bits .f32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x8192 : S32x1.Broadcasts S32x8192
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x8192 : S2x1.Broadcasts S2x8192
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  slices_S2x8192_o0_0_S1x8192 : S2x8192.Slices ![0, 0] S1x8192
  slices_S2x8192_o1_0_S1x8192 : S2x8192.Slices ![1, 0] S1x8192
  concatenates_S1x8192_S1x8192_S2x8192_d0 : Shape.Concatenates [S1x8192, S1x8192] S2x8192 0
  transposes_S2x1048576_S1048576x2_1_0 : S2x1048576.Transposes [1, 0] S1048576x2
  dot_S32x2_S2x8192_S32x8192_1_0_0_1_n_n_wf : DotDims.WF S32x2 S2x8192 S32x8192 [1] [0] [0] [1] [] []
  dot_S32x32_S32x8192_S32x8192_1_0_0_1_n_n_wf : DotDims.WF S32x32 S32x8192 S32x8192 [1] [0] [0] [1] [] []
  dot_S2x32_S32x8192_S2x8192_1_0_0_1_n_n_wf : DotDims.WF S2x32 S32x8192 S2x8192 [1] [0] [0] [1] [] []
  dot_S1x32_S32x8192_S1x8192_1_0_0_1_n_n_wf : DotDims.WF S1x32 S32x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x1048576.size a
  hwx0_0 : ∀ i : grid0.Coords, EltTy.bits .f32 = 32 ∨ (Rect.block (s := S2x1048576) S2x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2.size a ≤ S32x2.size a
  hwx0_1 : ∀ i : grid0.Coords, EltTy.bits .f32 = 32 ∨ (Rect.block (s := S32x2) S32x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32.size a ≤ S2x32.size a
  hwx0_3 : ∀ i : grid0.Coords, EltTy.bits .f32 = 32 ∨ (Rect.block (s := S2x32) S2x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2.size a ≤ S32x2.size a
  hwx0_4 : ∀ i : grid0.Coords, EltTy.bits .f32 = 32 ∨ (Rect.block (s := S32x2) S32x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .f32 = 32 ∨ (Rect.block (s := S32x1) S32x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x1.size a ≤ S2x1.size a
  hwx0_9 : ∀ i : grid0.Coords, EltTy.bits .f32 = 32 ∨ (Rect.block (s := S2x1) S2x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1.size a ≤ S32x1.size a
  hwx0_11 : ∀ i : grid0.Coords, EltTy.bits .f32 = 32 ∨ (Rect.block (s := S32x1) S32x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x1.size a ≤ S2x1.size a
  hwx0_13 : ∀ i : grid0.Coords, EltTy.bits .f32 = 32 ∨ (Rect.block (s := S2x1) S2x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2x8192.size a ≤ S2x1048576.size a
  hwx0_14 : ∀ i : grid0.Coords, EltTy.bits .f32 = 32 ∨ (Rect.block (s := S2x1048576) S2x8192.size (cc0_transform_14 i) (hinb0_14 i)).WholeWords (EltTy.packing .f32)

variable [Facts₀]

def dot_S32x2_S2x8192_S32x8192_1_0_0_1_n_n : DotDims S32x2 S2x8192 S32x8192 where
  lhsContracting := [1]
  rhsContracting := [0]
  lhsNonContracting := [0]
  rhsNonContracting := [1]
  lhsBatch := []
  rhsBatch := []
  wf := dot_S32x2_S2x8192_S32x8192_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf
def dot_S2x32_S32x8192_S2x8192_1_0_0_1_n_n : DotDims S2x32 S32x8192 S2x8192 where
  lhsContracting := [1]
  rhsContracting := [0]
  lhsNonContracting := [0]
  rhsNonContracting := [1]
  lhsBatch := []
  rhsBatch := []
  wf := dot_S2x32_S32x8192_S2x8192_1_0_0_1_n_n_wf
def dot_S1x32_S32x8192_S1x8192_1_0_0_1_n_n : DotDims S1x32 S32x8192 S1x8192 where
  lhsContracting := [1]
  rhsContracting := [0]
  lhsNonContracting := [0]
  rhsNonContracting := [1]
  lhsBatch := []
  rhsBatch := []
  wf := dot_S1x32_S32x8192_S1x8192_1_0_0_1_n_n_wf

abbrev win0_0 : Pipeline.Window sig grid0 :=
  Pipeline.Window.ofSpec (Memref.whole main_v0) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S32x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S2x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S2x8192.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S2x32 : Shape := ⟨2, ![2, 32]⟩
abbrev S32x32 : Shape := ⟨2, ![32, 32]⟩
abbrev S32x2 : Shape := ⟨2, ![32, 2]⟩
abbrev S32x1 : Shape := ⟨2, ![32, 1]⟩
abbrev S32 : Shape := ⟨1, ![32]⟩
abbrev S2 : Shape := ⟨1, ![2]⟩
abbrev S1 : Shape := ⟨1, ![1]⟩
abbrev S1048576x32 : Shape := ⟨2, ![1048576, 32]⟩
abbrev S1x32 : Shape := ⟨2, ![1, 32]⟩
abbrev S1x2 : Shape := ⟨2, ![1, 2]⟩
abbrev S_ : Shape := ⟨0, ![]⟩
abbrev S1048576x1 : Shape := ⟨2, ![1048576, 1]⟩
abbrev S1x1 : Shape := ⟨2, ![1, 1]⟩
abbrev S1048576 : Shape := ⟨1, ![1048576]⟩

abbrev nBuf : Space → Nat
  | .hbm => 73
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S2x32, .f32⟩
  | .hbm, ⟨2, _⟩ => ⟨S32x32, .f32⟩
  | .hbm, ⟨3, _⟩ => ⟨S32x2, .f32⟩
  | .hbm, ⟨4, _⟩ => ⟨S2x32, .f32⟩
  | .hbm, ⟨5, _⟩ => ⟨S32x32, .f32⟩
  | .hbm, ⟨6, _⟩ => ⟨S32x1, .f32⟩
  | .hbm, ⟨7, _⟩ => ⟨S32, .f32⟩
  | .hbm, ⟨8, _⟩ => ⟨S32, .f32⟩
  | .hbm, ⟨9, _⟩ => ⟨S2, .f32⟩
  | .hbm, ⟨10, _⟩ => ⟨S32, .f32⟩
  | .hbm, ⟨11, _⟩ => ⟨S32, .f32⟩
  | .hbm, ⟨12, _⟩ => ⟨S1, .f32⟩
  | .hbm, ⟨13, _⟩ => ⟨S2, .f32⟩
  | .hbm, ⟨14, _⟩ => ⟨S1048576x32, .f32⟩
  | .hbm, ⟨15, _⟩ => ⟨S1x32, .f32⟩
  | .hbm, ⟨16, _⟩ => ⟨S1048576x32, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S1x32, .f32⟩
  | .hbm, ⟨21, _⟩ => ⟨S1048576x32, .f32⟩
  | .hbm, ⟨22, _⟩ => ⟨S1048576x32, .f32⟩
  | .hbm, ⟨23, _⟩ => ⟨S1048576x32, .f32⟩
  | .hbm, ⟨24, _⟩ => ⟨S1048576x2, .f32⟩
  | .hbm, ⟨25, _⟩ => ⟨S1x2, .f32⟩
  | .hbm, ⟨26, _⟩ => ⟨S1048576x2, .f32⟩
  | .hbm, ⟨27, _⟩ => ⟨S1048576x2, .f32⟩
  | .hbm, ⟨28, _⟩ => ⟨S_, .f32⟩
  | .hbm, ⟨29, _⟩ => ⟨S1048576x2, .f32⟩
  | .hbm, ⟨30, _⟩ => ⟨S1048576x2, .f32⟩
  | .hbm, ⟨31, _⟩ => ⟨S1x2, .f32⟩
  | .hbm, ⟨32, _⟩ => ⟨S1048576x2, .f32⟩
  | .hbm, ⟨33, _⟩ => ⟨S1048576x2, .f32⟩
  | .hbm, ⟨34, _⟩ => ⟨S1048576x2, .f32⟩
  | .hbm, ⟨35, _⟩ => ⟨S1048576x32, .f32⟩
  | .hbm, ⟨36, _⟩ => ⟨S1x32, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S1x32, .f32⟩
  | .hbm, ⟨42, _⟩ => ⟨S1048576x32, .f32⟩
  | .hbm, ⟨43, _⟩ => ⟨S1048576x32, .f32⟩
  | .hbm, ⟨44, _⟩ => ⟨S1048576x32, .f32⟩
  | .hbm, ⟨45, _⟩ => ⟨S1048576x1, .f32⟩
  | .hbm, ⟨46, _⟩ => ⟨S1x1, .f32⟩
  | .hbm, ⟨47, _⟩ => ⟨S1048576x1, .f32⟩
  | .hbm, ⟨48, _⟩ => ⟨S1048576x1, .f32⟩
  | .hbm, ⟨49, _⟩ => ⟨S1048576x1, .f32⟩
  | .hbm, ⟨50, _⟩ => ⟨S1048576, .f32⟩
  | .hbm, ⟨51, _⟩ => ⟨S1048576x1, .f32⟩
  | .hbm, ⟨52, _⟩ => ⟨S1048576, .f32⟩
  | .hbm, ⟨53, _⟩ => ⟨S1048576, .f32⟩
  | .hbm, ⟨54, _⟩ => ⟨S1048576x1, .f32⟩
  | .hbm, ⟨55, _⟩ => ⟨S1048576, .f32⟩
  | .hbm, ⟨56, _⟩ => ⟨S1048576x1, .f32⟩
  | .hbm, ⟨57, _⟩ => ⟨S1048576, .f32⟩
  | .hbm, ⟨58, _⟩ => ⟨S1048576, .f32⟩
  | .hbm, ⟨59, _⟩ => ⟨S1048576, .f32⟩
  | .hbm, ⟨60, _⟩ => ⟨S1048576, .f32⟩
  | .hbm, ⟨61, _⟩ => ⟨S1048576, .f32⟩
  | .hbm, ⟨62, _⟩ => ⟨S1048576, .f32⟩
  | .hbm, ⟨63, _⟩ => ⟨S1048576, .f32⟩
  | .hbm, ⟨64, _⟩ => ⟨S1048576, .f32⟩
  | .hbm, ⟨65, _⟩ => ⟨S1048576, .f32⟩
  | .hbm, ⟨66, _⟩ => ⟨S1048576, .f32⟩
  | .hbm, ⟨67, _⟩ => ⟨S1048576, .f32⟩
  | .hbm, ⟨68, _⟩ => ⟨S1048576, .f32⟩
  | .hbm, ⟨69, _⟩ => ⟨S1048576, .f32⟩
  | .hbm, ⟨70, _⟩ => ⟨S1048576x1, .f32⟩
  | .hbm, ⟨71, _⟩ => ⟨S1048576x1, .f32⟩
  | .hbm, ⟨72, _⟩ => ⟨S1048576x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S1048576x2 : S_.BroadcastsInDim S1048576x2 (![] : Fin 0 → Fin S1048576x2.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  dot_S1048576x2_S2x32_S1048576x32_1_0_0_1_n_n_wf : DotDims.WF S1048576x2 S2x32 S1048576x32 [1] [0] [0] [1] [] []
  dot_S1048576x32_S32x32_S1048576x32_1_0_0_1_n_n_wf : DotDims.WF S1048576x32 S32x32 S1048576x32 [1] [0] [0] [1] [] []
  dot_S1048576x32_S32x2_S1048576x2_1_0_0_1_n_n_wf : DotDims.WF S1048576x32 S32x2 S1048576x2 [1] [0] [0] [1] [] []
  dot_S1048576x32_S32x1_S1048576x1_1_0_0_1_n_n_wf : DotDims.WF S1048576x32 S32x1 S1048576x1 [1] [0] [0] [1] [] []

variable [Facts₀]

def dot_S1048576x2_S2x32_S1048576x32_1_0_0_1_n_n : DotDims S1048576x2 S2x32 S1048576x32 where
  lhsContracting := [1]
  rhsContracting := [0]
  lhsNonContracting := [0]
  rhsNonContracting := [1]
  lhsBatch := []
  rhsBatch := []
  wf := dot_S1048576x2_S2x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x2_S1048576x2_1_0_0_1_n_n : DotDims S1048576x32 S32x2 S1048576x2 where
  lhsContracting := [1]
  rhsContracting := [0]
  lhsNonContracting := [0]
  rhsNonContracting := [1]
  lhsBatch := []
  rhsBatch := []
  wf := dot_S1048576x32_S32x2_S1048576x2_1_0_0_1_n_n_wf
def dot_S1048576x32_S32x1_S1048576x1_1_0_0_1_n_n : DotDims S1048576x32 S32x1 S1048576x1 where
  lhsContracting := [1]
  rhsContracting := [0]
  lhsNonContracting := [0]
  rhsNonContracting := [1]
  lhsBatch := []
  rhsBatch := []
  wf := dot_S1048576x32_S32x1_S1048576x1_1_0_0_1_n_n_wf

class Facts : Prop extends Facts₀ where

variable [Facts]
-- ==== Proof.Sample.lean ====
/-
  The map both programs compute, one sample at a time.

  A sample is a row `xr = (x₀, x₁)` of the input. Two small perceptrons read it. Each has two hidden layers of 32
  units, `h ↦ tanh (Σ_k a_k · w_{k,h} + b_h)`, and an affine read-out. The first perceptron ends in two numbers
  `d₀, d₁`, and the diagonal of a lower-triangular factor is `a = (max d₀ 0 + δ₀) · x₀`, `b = (max d₁ 0 + δ₁) · x₁`;
  the second ends in one number, the factor's off-diagonal entry `c`. With `L = [[a, 0], [c, b]]` the result is
  `L Lᵀ x` written out: `(a·a·x₀ + a·c·x₁ , a·c·x₀ + (c·c + b·b)·x₁)`.

  Everything is stated on the extended reals, where sums and products are commutative and associative (nothing here
  distributes or cancels, so no entry needs to be finite). The one law used between the two programs is that a
  layer's sum does not care on which side of each product the weight stands (`affineT_eq`).
-/
import Idealize.ShloMosaic.PureOps.Ideal
import Idealize.ShloMosaic.PureOps.Ideal.Laws
import Idealize.ShloMosaic.Lib.ValueIdx

noncomputable section

namespace Cert.Damping

open Idealize.ShloMosaic

/-- One affine layer at one sample: unit `h` reads `Σ_k a_k · w_{k,h} + b_h`. -/
def affine {K H : ℕ} (a : Fin K → EReal) (w : Fin K → Fin H → EReal) (b : Fin H → EReal) (h : Fin H) : EReal :=
  (∑ k : Fin K, a k * w k h) + b h

/-- The same layer with each product written weight first, as a matrix product `W · a` with `W` the transposed
    weights computes it. -/
def affineT {K H : ℕ} (a : Fin K → EReal) (w : Fin K → Fin H → EReal) (b : Fin H → EReal) (h : Fin H) : EReal :=
  (∑ k : Fin K, w k h * a k) + b h

/-- Products of extended reals commute, term by term under the sum. -/
theorem affineT_eq {K H : ℕ} (a : Fin K → EReal) (w : Fin K → Fin H → EReal) (b : Fin H → EReal) :
    affineT a w b = affine a w b := by
  funext h
  unfold affineT affine
  exact congrArg (· + b h) (Finset.sum_congr rfl fun k _ => mul_comm _ _)

/-- A hidden layer: the affine layer followed by `tanh` (on the extended reals `tanh (±∞) = ±1`). -/
def hidden {K H : ℕ} (a : Fin K → EReal) (w : Fin K → Fin H → EReal) (b : Fin H → EReal) (h : Fin H) : EReal :=
  Ideal.tanh (affine a w b h)

/-- The two rows of `L Lᵀ x` for `L = [[a, 0], [c, b]]`, grouped as both programs group them. -/
def quad (a b c x0 x1 : EReal) (j : Fin 2) : EReal :=
  if j.val = 0 then a * a * x0 + a * c * x1 else a * c * x0 + (c * c + b * b) * x1

/-- An entry of the factor's diagonal: the first perceptron's read-out `j`, clipped below at `z` (both programs
    pass the zero of the format), shifted by the floor `δ_j` and scaled by the sample's own coordinate. -/
def diagEntry (xr : Fin 2 → EReal) (w1 : Fin 2 → Fin 32 → EReal) (w2 : Fin 32 → Fin 32 → EReal) (w3 : Fin 32 → Fin 2 → EReal)
    (b1 b2 : Fin 32 → EReal) (b3 : Fin 2 → EReal) (z : EReal) (δ : Fin 2 → EReal) (j : Fin 2) : EReal :=
  (max (affine (hidden (hidden xr w1 b1) w2 b2) w3 b3 j) z + δ j) * xr j

/-- The factor's off-diagonal entry: the second perceptron's single read-out. -/
def offEntry (xr : Fin 2 → EReal) (w1 : Fin 2 → Fin 32 → EReal) (w2 : Fin 32 → Fin 32 → EReal) (w3 : Fin 32 → Fin 1 → EReal)
    (b1 b2 : Fin 32 → EReal) (b3 : Fin 1 → EReal) : EReal :=
  affine (hidden (hidden xr w1 b1) w2 b2) w3 b3 0

/-- The whole map at one sample: coordinate `j` of `L Lᵀ x`. -/
def sample (xr : Fin 2 → EReal)
    (wd1 : Fin 2 → Fin 32 → EReal) (wd2 : Fin 32 → Fin 32 → EReal) (wd3 : Fin 32 → Fin 2 → EReal)
    (wo1 : Fin 2 → Fin 32 → EReal) (wo2 : Fin 32 → Fin 32 → EReal) (wo3 : Fin 32 → Fin 1 → EReal)
    (bd1 bd2 : Fin 32 → EReal) (bd3 : Fin 2 → EReal) (bo1 bo2 : Fin 32 → EReal) (bo3 : Fin 1 → EReal)
    (z : EReal) (δ : Fin 2 → EReal) (j : Fin 2) : EReal :=
  quad (diagEntry xr wd1 wd2 wd3 bd1 bd2 bd3 z δ 0) (diagEntry xr wd1 wd2 wd3 bd1 bd2 bd3 z δ 1)
    (offEntry xr wo1 wo2 wo3 bo1 bo2 bo3) (xr 0) (xr 1) j

/-! ## The map on whole arrays -/

open Idealize.ShloMosaic.ValueIdx

/-- Row `n` of a matrix, as a function of the column. -/
def rowAt {N K : ℕ} (x : (⟨2, ![N, K]⟩ : Shape).Idx → EReal) (n : Fin N) : Fin K → EReal := fun k => x (ix2 n k)

/-- A matrix as a function of its two coordinates. -/
def matOf {K H : ℕ} (w : (⟨2, ![K, H]⟩ : Shape).Idx → EReal) : Fin K → Fin H → EReal := fun k h => w (ix2 k h)

/-- A vector as a function of its coordinate. -/
def vecOf {H : ℕ} (b : (⟨1, ![H]⟩ : Shape).Idx → EReal) : Fin H → EReal := fun h => b (ix1 h)

/-- The zero of the format, as both programs write it (never evaluated: the same word on both sides). -/
abbrev zeroWord : EReal := Ideal.ofBits .f32 0x00000000#32

/-- The floor added to the clipped diagonal, `1e-3` as both programs write it (never evaluated either). -/
abbrev floorWord : EReal := Ideal.ofBits .f32 0x3A83126F#32

/-- THE RESULT as one function of the thirteen argument arrays: entry `(n, j)` is coordinate `j` of `L Lᵀ x` at
    sample `n`, the weights `[in, out]` matrices as the arguments give them, the biases vectors. -/
def result (x : (⟨2, ![1048576, 2]⟩ : Shape).Idx → EReal)
    (wd1 : (⟨2, ![2, 32]⟩ : Shape).Idx → EReal) (wd2 : (⟨2, ![32, 32]⟩ : Shape).Idx → EReal) (wd3 : (⟨2, ![32, 2]⟩ : Shape).Idx → EReal)
    (wo1 : (⟨2, ![2, 32]⟩ : Shape).Idx → EReal) (wo2 : (⟨2, ![32, 32]⟩ : Shape).Idx → EReal) (wo3 : (⟨2, ![32, 1]⟩ : Shape).Idx → EReal)
    (bd1 bd2 : (⟨1, ![32]⟩ : Shape).Idx → EReal) (bd3 : (⟨1, ![2]⟩ : Shape).Idx → EReal)
    (bo1 bo2 : (⟨1, ![32]⟩ : Shape).Idx → EReal) (bo3 : (⟨1, ![1]⟩ : Shape).Idx → EReal) :
    (⟨2, ![1048576, 2]⟩ : Shape).Idx → EReal := fun i =>
  sample (rowAt x (i 0)) (matOf wd1) (matOf wd2) (matOf wd3) (matOf wo1) (matOf wo2) (matOf wo3)
    (vecOf bd1) (vecOf bd2) (vecOf bd3) (vecOf bo1) (vecOf bo2) (vecOf bo3) zeroWord (fun _ => floorWord) (i 1)

end Cert.Damping

end
-- ==== Proof.RefSample.lean ====
/-
  The reference program, read at an index, is `Damping.result`.

  The reference works on the arrays as given: each layer is `a · W + b` with the sample's activations as a row on the
  left, so at sample `n` and unit `h` it reads `Σ_k a_{n,k} · W_{k,h} + b_h` — the specification's own arrangement.
  The diagonal entries are columns 0 and 1 of `(max d 0 + δ) · x`, the off-diagonal entry the one column of the second
  perceptron's read-out, all three flattened to vectors over the samples; the two output rows are formed entrywise
  and set side by side as the two columns of the result. Each stage is one generated read-at-an-index lemma; written
  here are the index bookkeeping between stages and the last stage (the two columns joined), which is read by hand.
-/
import proofs.«177417_j82884278878217_1_alg».proof.Proof.Gen.ReferenceIdeal.Read
import proofs.«177417_j82884278878217_1_alg».proof.Proof.Sample

noncomputable section

namespace Cert.Damping.Ref

open Idealize.ShloMosaic Idealize.ShloMosaic.TcCoe Idealize.SL.Sem Idealize.ShloMosaic.ValueIdx
open Cert.ReferenceIdeal Cert.ReferenceIdeal.Gen Cert.ReferenceIdeal.Read Cert.Damping

variable (x0 : (⟨S1048576x2, .f32⟩ : BufTy).Contents (Elt Ideal)) (x1 : (⟨S2x32, .f32⟩ : BufTy).Contents (Elt Ideal))
  (x2 : (⟨S32x32, .f32⟩ : BufTy).Contents (Elt Ideal)) (x3 : (⟨S32x2, .f32⟩ : BufTy).Contents (Elt Ideal))
  (x4 : (⟨S2x32, .f32⟩ : BufTy).Contents (Elt Ideal)) (x5 : (⟨S32x32, .f32⟩ : BufTy).Contents (Elt Ideal))
  (x6 : (⟨S32x1, .f32⟩ : BufTy).Contents (Elt Ideal)) (x7 x8 : (⟨S32, .f32⟩ : BufTy).Contents (Elt Ideal))
  (x9 : (⟨S2, .f32⟩ : BufTy).Contents (Elt Ideal)) (x10 x11 : (⟨S32, .f32⟩ : BufTy).Contents (Elt Ideal))
  (x12 : (⟨S1, .f32⟩ : BufTy).Contents (Elt Ideal))

/-! ## The first perceptron -/

/-- Its first hidden layer at sample `n`, unit `h`. -/
theorem dHidden1 (n : Fin 1048576) (h : Fin 32) :
    val_main_v4 (F := Ideal) x0 x1 x7 (ix2 n h) = hidden (rowAt x0 n) (matOf x1) (vecOf x7) h := by
  rw [val_main_v4_apply, val_main_v3_apply, val_main_v0_apply, val_main_v2_apply, val_main_v1_apply]
  unfold hidden affine rowAt matOf vecOf
  refine congrArg Ideal.tanh (congrArg₂ (· + ·) (Finset.sum_congr rfl fun k _ => congrArg₂ (· * ·) (congrArg x0 ?_) (congrArg x1 ?_)) (congrArg x7 ?_))
  · funext a; match a with | ⟨0, _⟩ => rfl | ⟨1, _⟩ => rfl
  · funext a; match a with | ⟨0, _⟩ => rfl | ⟨1, _⟩ => rfl
  · funext a; match a with | ⟨0, _⟩ => rfl

/-- Its second hidden layer. -/
theorem dHidden2 (n : Fin 1048576) (h : Fin 32) :
    val_main_v9 (F := Ideal) x0 x1 x2 x7 x8 (ix2 n h)
      = hidden (hidden (rowAt x0 n) (matOf x1) (vecOf x7)) (matOf x2) (vecOf x8) h := by
  rw [val_main_v9_apply, val_main_v8_apply, val_main_v5_apply, val_main_v7_apply, val_main_v6_apply]
  conv_rhs => unfold hidden affine
  refine congrArg Ideal.tanh (congrArg₂ (· + ·) (Finset.sum_congr rfl fun k _ => congrArg₂ (· * ·) ?_ (congrArg x2 ?_)) (congrArg x8 ?_))
  · rw [show lidx_main_v5 (ix2 n h) k = ix2 n k from by funext a; match a with | ⟨0, _⟩ => rfl | ⟨1, _⟩ => rfl]
    exact dHidden1 x0 x1 x7 n k
  · funext a; match a with | ⟨0, _⟩ => rfl | ⟨1, _⟩ => rfl
  · funext a; match a with | ⟨0, _⟩ => rfl

/-- Its read-out, clipped, shifted and scaled: entry `j` of the factor's diagonal. -/
theorem dDiag (n : Fin 1048576) (j : Fin 2) :
    val_main_v18 (F := Ideal) x0 x1 x2 x3 x7 x8 x9 (ix2 n j)
      = diagEntry (rowAt x0 n) (matOf x1) (matOf x2) (matOf x3) (vecOf x7) (vecOf x8) (vecOf x9) zeroWord (fun _ => floorWord) j := by
  rw [val_main_v18_apply, val_main_v17_apply, val_main_v14_apply, val_main_v13_apply, val_main_v10_apply, val_main_v12_apply,
    val_main_v11_apply, val_main_call0_v0_apply, val_main_call0_cst_apply, val_main_v16_apply, val_main_v15_apply, val_main_cst_apply]
  unfold diagEntry
  conv_rhs => unfold affine
  refine congrArg₂ (· * ·) (congrArg₂ (· + ·) (congrArg₂ max (congrArg₂ (· + ·) (Finset.sum_congr rfl fun k _ => congrArg₂ (· * ·) ?_ (congrArg x3 ?_)) (congrArg x9 ?_)) rfl) rfl) rfl
  · rw [show lidx_main_v10 (ix2 n j) k = ix2 n k from by funext a; match a with | ⟨0, _⟩ => rfl | ⟨1, _⟩ => rfl]
    exact dHidden2 x0 x1 x2 x7 x8 n k
  · funext a; match a with | ⟨0, _⟩ => rfl | ⟨1, _⟩ => rfl
  · funext a; match a with | ⟨0, _⟩ => rfl

/-! ## The second perceptron -/

theorem oHidden1 (n : Fin 1048576) (h : Fin 32) :
    val_main_v23 (F := Ideal) x0 x4 x10 (ix2 n h) = hidden (rowAt x0 n) (matOf x4) (vecOf x10) h := by
  rw [val_main_v23_apply, val_main_v22_apply, val_main_v19_apply, val_main_v21_apply, val_main_v20_apply]
  unfold hidden affine rowAt matOf vecOf
  refine congrArg Ideal.tanh (congrArg₂ (· + ·) (Finset.sum_congr rfl fun k _ => congrArg₂ (· * ·) (congrArg x0 ?_) (congrArg x4 ?_)) (congrArg x10 ?_))
  · funext a; match a with | ⟨0, _⟩ => rfl | ⟨1, _⟩ => rfl
  · funext a; match a with | ⟨0, _⟩ => rfl | ⟨1, _⟩ => rfl
  · funext a; match a with | ⟨0, _⟩ => rfl

theorem oHidden2 (n : Fin 1048576) (h : Fin 32) :
    val_main_v28 (F := Ideal) x0 x4 x5 x10 x11 (ix2 n h)
      = hidden (hidden (rowAt x0 n) (matOf x4) (vecOf x10)) (matOf x5) (vecOf x11) h := by
  rw [val_main_v28_apply, val_main_v27_apply, val_main_v24_apply, val_main_v26_apply, val_main_v25_apply]
  conv_rhs => unfold hidden affine
  refine congrArg Ideal.tanh (congrArg₂ (· + ·) (Finset.sum_congr rfl fun k _ => congrArg₂ (· * ·) ?_ (congrArg x5 ?_)) (congrArg x11 ?_))
  · rw [show lidx_main_v24 (ix2 n h) k = ix2 n k from by funext a; match a with | ⟨0, _⟩ => rfl | ⟨1, _⟩ => rfl]
    exact oHidden1 x0 x4 x10 n k
  · funext a; match a with | ⟨0, _⟩ => rfl | ⟨1, _⟩ => rfl
  · funext a; match a with | ⟨0, _⟩ => rfl

/-- Its single read-out: the factor's off-diagonal entry. -/
theorem oOff (n : Fin 1048576) :
    val_main_v32 (F := Ideal) x0 x4 x5 x6 x10 x11 x12 (ix2 n 0)
      = offEntry (rowAt x0 n) (matOf x4) (matOf x5) (matOf x6) (vecOf x10) (vecOf x11) (vecOf x12) := by
  rw [val_main_v32_apply, val_main_v29_apply, val_main_v31_apply, val_main_v30_apply]
  unfold offEntry
  conv_rhs => unfold affine
  refine congrArg₂ (· + ·) (Finset.sum_congr rfl fun k _ => congrArg₂ (· * ·) ?_ (congrArg x6 ?_)) (congrArg x12 ?_)
  · rw [show lidx_main_v29 (ix2 n 0) k = ix2 n k from by funext a; match a with | ⟨0, _⟩ => rfl | ⟨1, _⟩ => rfl]
    exact oHidden2 x0 x4 x5 x10 x11 n k
  · funext a; match a with | ⟨0, _⟩ => rfl | ⟨1, _⟩ => rfl
  · funext a; match a with | ⟨0, _⟩ => rfl

/-! ## The columns flattened to vectors over the samples -/

theorem flatA (n : Fin 1048576) :
    val_main_v34 (F := Ideal) x0 x1 x2 x3 x7 x8 x9 (ix1 n) = val_main_v18 (F := Ideal) x0 x1 x2 x3 x7 x8 x9 (ix2 n 0) := by
  rw [val_main_v34_apply, val_main_v33_apply]
  refine congrArg _ ?_
  funext a; apply Fin.ext
  match a with | ⟨0, _⟩ => exact Nat.div_one _ | ⟨1, _⟩ => rfl

theorem flatB (n : Fin 1048576) :
    val_main_v36 (F := Ideal) x0 x1 x2 x3 x7 x8 x9 (ix1 n) = val_main_v18 (F := Ideal) x0 x1 x2 x3 x7 x8 x9 (ix2 n 1) := by
  rw [val_main_v36_apply, val_main_v35_apply]
  refine congrArg _ ?_
  funext a; apply Fin.ext
  match a with | ⟨0, _⟩ => exact Nat.div_one _ | ⟨1, _⟩ => rfl

theorem flatC (n : Fin 1048576) :
    val_main_v37 (F := Ideal) x0 x4 x5 x6 x10 x11 x12 (ix1 n) = val_main_v32 (F := Ideal) x0 x4 x5 x6 x10 x11 x12 (ix2 n 0) := by
  rw [val_main_v37_apply]
  refine congrArg _ ?_
  funext a; apply Fin.ext
  match a with | ⟨0, _⟩ => exact Nat.div_one _ | ⟨1, _⟩ => rfl

theorem flatX0 (n : Fin 1048576) : val_main_v39 (F := Ideal) x0 (ix1 n) = x0 (ix2 n 0) := by
  rw [val_main_v39_apply, val_main_v38_apply]
  refine congrArg x0 ?_
  funext a; apply Fin.ext
  match a with | ⟨0, _⟩ => exact Nat.div_one _ | ⟨1, _⟩ => rfl

theorem flatX1 (n : Fin 1048576) : val_main_v41 (F := Ideal) x0 (ix1 n) = x0 (ix2 n 1) := by
  rw [val_main_v41_apply, val_main_v40_apply]
  refine congrArg x0 ?_
  funext a; apply Fin.ext
  match a with | ⟨0, _⟩ => exact Nat.div_one _ | ⟨1, _⟩ => rfl

/-! ## The two output rows, and the result -/

/-- Row 0 of `L Lᵀ x` at sample `n`: `a·a·x₀ + a·c·x₁`. -/
theorem row0 (n : Fin 1048576) :
    val_main_v46 (F := Ideal) x0 x1 x2 x3 x4 x5 x6 x7 x8 x9 x10 x11 x12 (ix1 n)
      = result x0 x1 x2 x3 x4 x5 x6 x7 x8 x9 x10 x11 x12 (ix2 n 0) := by
  rw [val_main_v46_apply, val_main_v43_apply, val_main_v42_apply, val_main_v45_apply, val_main_v44_apply,
    flatA, flatC, flatX0, flatX1, dDiag, oOff]
  rfl

/-- Row 1: `a·c·x₀ + (c·c + b·b)·x₁`. -/
theorem row1 (n : Fin 1048576) :
    val_main_v53 (F := Ideal) x0 x1 x2 x3 x4 x5 x6 x7 x8 x9 x10 x11 x12 (ix1 n)
      = result x0 x1 x2 x3 x4 x5 x6 x7 x8 x9 x10 x11 x12 (ix2 n 1) := by
  rw [val_main_v53_apply, val_main_v48_apply, val_main_v47_apply, val_main_v52_apply, val_main_v51_apply, val_main_v49_apply,
    val_main_v50_apply, flatA, flatB, flatC, flatX0, flatX1, dDiag, dDiag, oOff]
  rfl

/-- The reference's result array is `result` of its arguments: column 0 is row 0 of every sample, column 1 row 1. -/
theorem value :
    val_main_v56 (F := Ideal) x0 x1 x2 x3 x4 x5 x6 x7 x8 x9 x10 x11 x12 = result x0 x1 x2 x3 x4 x5 x6 x7 x8 x9 x10 x11 x12 := by
  funext i
  obtain ⟨n, j, rfl⟩ : ∃ (n : Fin 1048576) (j : Fin 2), i = ix2 n j := ⟨i 0, i 1, eq_ix2 i⟩
  unfold val_main_v56
  match j with
  | ⟨0, _⟩ =>
    refine (concatenate_pair_apply_left (t := S1048576x2) (s₁ := S1048576x1) (s₂ := S1048576x1) (1 : Fin 2) _ _
      concatenates_S1048576x1_S1048576x1_S1048576x2_d1 _ rfl (ix2 n (0 : Fin 1))
      (fun b => by match b with | ⟨0, _⟩ => rfl | ⟨1, _⟩ => rfl)).trans ?_
    rw [val_main_v54_apply]
    exact row0 x0 x1 x2 x3 x4 x5 x6 x7 x8 x9 x10 x11 x12 n
  | ⟨1, _⟩ =>
    refine (concatenate_pair_apply_right (t := S1048576x2) (s₁ := S1048576x1) (s₂ := S1048576x1) (1 : Fin 2) _ _
      concatenates_S1048576x1_S1048576x1_S1048576x2_d1 _ rfl rfl (ix2 n (0 : Fin 1))
      (fun b hb => by match b, hb with | ⟨0, _⟩, _ => rfl | ⟨1, _⟩, hb => exact absurd rfl hb) rfl).trans ?_
    rw [val_main_v55_apply]
    exact row1 x0 x1 x2 x3 x4 x5 x6 x7 x8 x9 x10 x11 x12 n

/-- The reference's run, re-posted at `result`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨by rw [(h c).1, val_main_v56_eq, value], (h c).2⟩)
    (Cert.ReferenceIdeal.Value.run (F := Ideal) m ρ)

end Cert.Damping.Ref

end
-- ==== Proof.Layers.lean ====
/-
  The kernel's layers, read at a unit and a lane.

  The kernel holds a block of samples as COLUMNS (one lane per sample) and every weight matrix transposed,
  `[out, in]`: a layer is the matrix product `W · A` into a zero accumulator plus the bias column broadcast along the
  lanes. At unit `h` and lane `q` the product is `Σ_k W_{h,k} · A_{k,q}` — the specification's layer of lane `q`'s
  activations with each product written weight first; products commute, so it is the specification's layer. The
  roundings to the narrow format in front of each product are the identity on the extended reals.
-/
import proofs.«177417_j82884278878217_1_alg».proof.Proof.Gen.KernelIdeal
import proofs.«177417_j82884278878217_1_alg».proof.Proof.Sample
import Idealize.ShloMosaic.Lib.Pipeline.Value
import Idealize.ShloMosaic.Lib.ValueIdx
import Idealize.ShloMosaic.PureOps.Ideal.Laws

noncomputable section

namespace Cert.Damping.Kern

open Idealize.ShloMosaic Idealize.ShloMosaic.TcCoe Idealize.SL.Sem Idealize.ShloMosaic.ValueIdx
open Cert.KernelIdeal Cert.KernelIdeal.Gen Cert.Damping

/-- A bias column broadcast along the lanes reads, at `(h, q)`, the column's entry `h`. -/
theorem bias_32 (b : Vec Ideal S32x1 .f32) (h : Fin 32) (q : Fin 8192) :
    broadcastTo S32x8192 b broadcasts_S32x1_S32x8192 (ix2 h q) = b (ix2 h 0) :=
  broadcastTo_apply b broadcasts_S32x1_S32x8192 (ix2 h q) (ix2 h 0) (fun a => by
    match a with
    | ⟨0, _⟩ => show h.val = if (32 : Nat) = 1 then 0 else h.val; rw [if_neg (by decide)]
    | ⟨1, _⟩ => show 0 = if (1 : Nat) = 1 then 0 else _; rw [if_pos rfl])

/-- A bias column broadcast along the lanes reads, at `(h, q)`, the column's entry `h`. -/
theorem bias_2 (b : Vec Ideal S2x1 .f32) (h : Fin 2) (q : Fin 8192) :
    broadcastTo S2x8192 b broadcasts_S2x1_S2x8192 (ix2 h q) = b (ix2 h 0) :=
  broadcastTo_apply b broadcasts_S2x1_S2x8192 (ix2 h q) (ix2 h 0) (fun a => by
    match a with
    | ⟨0, _⟩ => show h.val = if (2 : Nat) = 1 then 0 else h.val; rw [if_neg (by decide)]
    | ⟨1, _⟩ => show 0 = if (1 : Nat) = 1 then 0 else _; rw [if_pos rfl])

/-- A bias column broadcast along the lanes reads, at `(h, q)`, the column's entry `h`. -/
theorem bias_1 (b : Vec Ideal S1x1 .f32) (h : Fin 1) (q : Fin 8192) :
    broadcastTo S1x8192 b broadcasts_S1x1_S1x8192 (ix2 h q) = b (ix2 h 0) :=
  broadcastTo_apply b broadcasts_S1x1_S1x8192 (ix2 h q) (ix2 h 0) (fun a => by
    match a with
    | ⟨0, _⟩ => show h.val = if (1 : Nat) = 1 then 0 else _; rw [if_pos rfl]; have := h.isLt; omega
    | ⟨1, _⟩ => show 0 = if (1 : Nat) = 1 then 0 else _; rw [if_pos rfl])

/-! ## 32 units reading 2 activations -/

theorem lhs0_hidFromX (i : S32x8192.Idx) (q : dot_S32x2_S2x8192_S32x8192_1_0_0_1_n_n.contr.Idx) : (dot_S32x2_S2x8192_S32x8192_1_0_0_1_n_n.lhsIdx i q 0).val = (i 0).val := by
  unfold DotDims.lhsIdx
  rw [dif_neg (show ¬(0 : Fin S32x2.rank) ∈ dot_S32x2_S2x8192_S32x8192_1_0_0_1_n_n.lhsBatch by decide), dif_pos (show (0 : Fin S32x2.rank) ∈ dot_S32x2_S2x8192_S32x8192_1_0_0_1_n_n.lhsNonContracting by decide)]
  rfl
theorem lhs1_hidFromX (i : S32x8192.Idx) (q : dot_S32x2_S2x8192_S32x8192_1_0_0_1_n_n.contr.Idx) : (dot_S32x2_S2x8192_S32x8192_1_0_0_1_n_n.lhsIdx i q 1).val = (q ⟨0, by decide⟩).val :=
  dot_S32x2_S2x8192_S32x8192_1_0_0_1_n_n.lhsIdx_val_of_single rfl i q
theorem rhs0_hidFromX (i : S32x8192.Idx) (q : dot_S32x2_S2x8192_S32x8192_1_0_0_1_n_n.contr.Idx) : (dot_S32x2_S2x8192_S32x8192_1_0_0_1_n_n.rhsIdx i q 0).val = (q ⟨0, by decide⟩).val :=
  dot_S32x2_S2x8192_S32x8192_1_0_0_1_n_n.rhsIdx_val_of_single rfl i q
theorem rhs1_hidFromX (i : S32x8192.Idx) (q : dot_S32x2_S2x8192_S32x8192_1_0_0_1_n_n.contr.Idx) : (dot_S32x2_S2x8192_S32x8192_1_0_0_1_n_n.rhsIdx i q 1).val = (i 1).val := by
  unfold DotDims.rhsIdx
  rw [dif_neg (show ¬(1 : Fin S2x8192.rank) ∈ dot_S32x2_S2x8192_S32x8192_1_0_0_1_n_n.rhsBatch by decide), dif_pos (show (1 : Fin S2x8192.rank) ∈ dot_S32x2_S2x8192_S32x8192_1_0_0_1_n_n.rhsNonContracting by decide)]
  rfl

/-- The matrix product into a zero accumulator, at row `h` and lane `q`: the sum over the 2 contracted positions of
    the left operand's row times the right operand's column. -/
theorem mm_hidFromX (L : FVec Ideal S32x2 .bf16) (R : FVec Ideal S2x8192 .bf16) (h : Fin 32) (q : Fin 8192) :
    matmul dot_S32x2_S2x8192_S32x8192_1_0_0_1_n_n none L R (constant S32x8192 .f32 0x00000000#32) (ix2 h q) = ∑ k : Fin 2, L (ix2 h k) * R (ix2 k q) := by
  simp only [matmul]
  rw [Ideal.matmul_constant_zero_apply, ← Equiv.sum_comp (contrEquiv1 dot_S32x2_S2x8192_S32x8192_1_0_0_1_n_n 2 rfl rfl).symm]
  refine Finset.sum_congr rfl fun k _ => ?_
  have hk := contrEquiv1_symm_val dot_S32x2_S2x8192_S32x8192_1_0_0_1_n_n 2 rfl rfl k
  have el : dot_S32x2_S2x8192_S32x8192_1_0_0_1_n_n.lhsIdx (ix2 h q) ((contrEquiv1 dot_S32x2_S2x8192_S32x8192_1_0_0_1_n_n 2 rfl rfl).symm k) = ix2 h k := funext fun a => Fin.ext (by
    match a with
    | ⟨0, _⟩ => exact lhs0_hidFromX _ _
    | ⟨1, _⟩ => exact (lhs1_hidFromX _ _).trans hk)
  have er : dot_S32x2_S2x8192_S32x8192_1_0_0_1_n_n.rhsIdx (ix2 h q) ((contrEquiv1 dot_S32x2_S2x8192_S32x8192_1_0_0_1_n_n 2 rfl rfl).symm k) = ix2 k q := funext fun a => Fin.ext (by
    match a with
    | ⟨0, _⟩ => exact (rhs0_hidFromX _ _).trans hk
    | ⟨1, _⟩ => exact rhs1_hidFromX _ _)
  rw [el, er]

/-- The layer as the body writes it: the weights (kept `[out, in]`) times the activations, plus the bias column
    broadcast along the lanes, then \`tanh\`. -/
def hidFromX (w : Vec Ideal S32x2 .f32) (a : FVec Ideal S2x8192 .bf16) (b : Vec Ideal S32x1 .f32) : FVec Ideal S32x8192 .f32 :=
  tanh (addf (matmul dot_S32x2_S2x8192_S32x8192_1_0_0_1_n_n none (truncf .bf16 (shapeCast S32x2 w shapeCasts_S32x2_S32x2) bitsLt_bf16_f32) a (constant S32x8192 .f32 0x00000000#32))
    (broadcastTo S32x8192 (shapeCast S32x1 b shapeCasts_S32x1_S32x1) broadcasts_S32x1_S32x8192))

/-- At unit `h` and lane `q` it is the specification's layer of lane `q`'s activations, the weight matrix read
    transposed (products commute under the sum). -/
theorem hidFromX_apply (w : Vec Ideal S32x2 .f32) (a : FVec Ideal S2x8192 .bf16) (b : Vec Ideal S32x1 .f32) (h : Fin 32) (q : Fin 8192) :
    hidFromX w a b (ix2 h q) = hidden (fun k => a (ix2 k q)) (fun k h => w (ix2 h k)) (fun h => b (ix2 h 0)) h := by
  unfold hidFromX hidden
  refine congrArg Ideal.tanh ?_
  refine Eq.trans ?_ (congrFun (affineT_eq (fun k => a (ix2 k q)) (fun k h => w (ix2 h k)) (fun h => b (ix2 h 0))) h)
  unfold affineT
  refine congrArg₂ (· + ·) ?_ ?_
  · rw [shapeCast_self]
    exact mm_hidFromX _ _ h q
  · rw [shapeCast_self]
    exact bias_32 b h q

/-! ## 32 units reading 32 activations -/

theorem lhs0_hidFromHid (i : S32x8192.Idx) (q : dot_S32x32_S32x8192_S32x8192_1_0_0_1_n_n.contr.Idx) : (dot_S32x32_S32x8192_S32x8192_1_0_0_1_n_n.lhsIdx i q 0).val = (i 0).val := by
  unfold DotDims.lhsIdx
  rw [dif_neg (show ¬(0 : Fin S32x32.rank) ∈ dot_S32x32_S32x8192_S32x8192_1_0_0_1_n_n.lhsBatch by decide), dif_pos (show (0 : Fin S32x32.rank) ∈ dot_S32x32_S32x8192_S32x8192_1_0_0_1_n_n.lhsNonContracting by decide)]
  rfl
theorem lhs1_hidFromHid (i : S32x8192.Idx) (q : dot_S32x32_S32x8192_S32x8192_1_0_0_1_n_n.contr.Idx) : (dot_S32x32_S32x8192_S32x8192_1_0_0_1_n_n.lhsIdx i q 1).val = (q ⟨0, by decide⟩).val :=
  dot_S32x32_S32x8192_S32x8192_1_0_0_1_n_n.lhsIdx_val_of_single rfl i q
theorem rhs0_hidFromHid (i : S32x8192.Idx) (q : dot_S32x32_S32x8192_S32x8192_1_0_0_1_n_n.contr.Idx) : (dot_S32x32_S32x8192_S32x8192_1_0_0_1_n_n.rhsIdx i q 0).val = (q ⟨0, by decide⟩).val :=
  dot_S32x32_S32x8192_S32x8192_1_0_0_1_n_n.rhsIdx_val_of_single rfl i q
theorem rhs1_hidFromHid (i : S32x8192.Idx) (q : dot_S32x32_S32x8192_S32x8192_1_0_0_1_n_n.contr.Idx) : (dot_S32x32_S32x8192_S32x8192_1_0_0_1_n_n.rhsIdx i q 1).val = (i 1).val := by
  unfold DotDims.rhsIdx
  rw [dif_neg (show ¬(1 : Fin S32x8192.rank) ∈ dot_S32x32_S32x8192_S32x8192_1_0_0_1_n_n.rhsBatch by decide), dif_pos (show (1 : Fin S32x8192.rank) ∈ dot_S32x32_S32x8192_S32x8192_1_0_0_1_n_n.rhsNonContracting by decide)]
  rfl

/-- The matrix product into a zero accumulator, at row `h` and lane `q`: the sum over the 32 contracted positions of
    the left operand's row times the right operand's column. -/
theorem mm_hidFromHid (L : FVec Ideal S32x32 .bf16) (R : FVec Ideal S32x8192 .bf16) (h : Fin 32) (q : Fin 8192) :
    matmul dot_S32x32_S32x8192_S32x8192_1_0_0_1_n_n none L R (constant S32x8192 .f32 0x00000000#32) (ix2 h q) = ∑ k : Fin 32, L (ix2 h k) * R (ix2 k q) := by
  simp only [matmul]
  rw [Ideal.matmul_constant_zero_apply, ← Equiv.sum_comp (contrEquiv1 dot_S32x32_S32x8192_S32x8192_1_0_0_1_n_n 32 rfl rfl).symm]
  refine Finset.sum_congr rfl fun k _ => ?_
  have hk := contrEquiv1_symm_val dot_S32x32_S32x8192_S32x8192_1_0_0_1_n_n 32 rfl rfl k
  have el : dot_S32x32_S32x8192_S32x8192_1_0_0_1_n_n.lhsIdx (ix2 h q) ((contrEquiv1 dot_S32x32_S32x8192_S32x8192_1_0_0_1_n_n 32 rfl rfl).symm k) = ix2 h k := funext fun a => Fin.ext (by
    match a with
    | ⟨0, _⟩ => exact lhs0_hidFromHid _ _
    | ⟨1, _⟩ => exact (lhs1_hidFromHid _ _).trans hk)
  have er : dot_S32x32_S32x8192_S32x8192_1_0_0_1_n_n.rhsIdx (ix2 h q) ((contrEquiv1 dot_S32x32_S32x8192_S32x8192_1_0_0_1_n_n 32 rfl rfl).symm k) = ix2 k q := funext fun a => Fin.ext (by
    match a with
    | ⟨0, _⟩ => exact (rhs0_hidFromHid _ _).trans hk
    | ⟨1, _⟩ => exact rhs1_hidFromHid _ _)
  rw [el, er]

/-- The layer as the body writes it: the weights (kept `[out, in]`) times the activations, plus the bias column
    broadcast along the lanes, then \`tanh\`. -/
def hidFromHid (w : Vec Ideal S32x32 .f32) (a : FVec Ideal S32x8192 .f32) (b : Vec Ideal S32x1 .f32) : FVec Ideal S32x8192 .f32 :=
  tanh (addf (matmul dot_S32x32_S32x8192_S32x8192_1_0_0_1_n_n none (truncf .bf16 (shapeCast S32x32 w shapeCasts_S32x32_S32x32) bitsLt_bf16_f32) (truncf .bf16 a bitsLt_bf16_f32) (constant S32x8192 .f32 0x00000000#32))
    (broadcastTo S32x8192 (shapeCast S32x1 b shapeCasts_S32x1_S32x1) broadcasts_S32x1_S32x8192))

/-- At unit `h` and lane `q` it is the specification's layer of lane `q`'s activations, the weight matrix read
    transposed (products commute under the sum). -/
theorem hidFromHid_apply (w : Vec Ideal S32x32 .f32) (a : FVec Ideal S32x8192 .f32) (b : Vec Ideal S32x1 .f32) (h : Fin 32) (q : Fin 8192) :
    hidFromHid w a b (ix2 h q) = hidden (fun k => a (ix2 k q)) (fun k h => w (ix2 h k)) (fun h => b (ix2 h 0)) h := by
  unfold hidFromHid hidden
  refine congrArg Ideal.tanh ?_
  refine Eq.trans ?_ (congrFun (affineT_eq (fun k => a (ix2 k q)) (fun k h => w (ix2 h k)) (fun h => b (ix2 h 0))) h)
  unfold affineT
  refine congrArg₂ (· + ·) ?_ ?_
  · rw [shapeCast_self]
    exact mm_hidFromHid _ _ h q
  · rw [shapeCast_self]
    exact bias_32 b h q

/-! ## 2 units reading 32 activations -/

theorem lhs0_readTwo (i : S2x8192.Idx) (q : dot_S2x32_S32x8192_S2x8192_1_0_0_1_n_n.contr.Idx) : (dot_S2x32_S32x8192_S2x8192_1_0_0_1_n_n.lhsIdx i q 0).val = (i 0).val := by
  unfold DotDims.lhsIdx
  rw [dif_neg (show ¬(0 : Fin S2x32.rank) ∈ dot_S2x32_S32x8192_S2x8192_1_0_0_1_n_n.lhsBatch by decide), dif_pos (show (0 : Fin S2x32.rank) ∈ dot_S2x32_S32x8192_S2x8192_1_0_0_1_n_n.lhsNonContracting by decide)]
  rfl
theorem lhs1_readTwo (i : S2x8192.Idx) (q : dot_S2x32_S32x8192_S2x8192_1_0_0_1_n_n.contr.Idx) : (dot_S2x32_S32x8192_S2x8192_1_0_0_1_n_n.lhsIdx i q 1).val = (q ⟨0, by decide⟩).val :=
  dot_S2x32_S32x8192_S2x8192_1_0_0_1_n_n.lhsIdx_val_of_single rfl i q
theorem rhs0_readTwo (i : S2x8192.Idx) (q : dot_S2x32_S32x8192_S2x8192_1_0_0_1_n_n.contr.Idx) : (dot_S2x32_S32x8192_S2x8192_1_0_0_1_n_n.rhsIdx i q 0).val = (q ⟨0, by decide⟩).val :=
  dot_S2x32_S32x8192_S2x8192_1_0_0_1_n_n.rhsIdx_val_of_single rfl i q
theorem rhs1_readTwo (i : S2x8192.Idx) (q : dot_S2x32_S32x8192_S2x8192_1_0_0_1_n_n.contr.Idx) : (dot_S2x32_S32x8192_S2x8192_1_0_0_1_n_n.rhsIdx i q 1).val = (i 1).val := by
  unfold DotDims.rhsIdx
  rw [dif_neg (show ¬(1 : Fin S32x8192.rank) ∈ dot_S2x32_S32x8192_S2x8192_1_0_0_1_n_n.rhsBatch by decide), dif_pos (show (1 : Fin S32x8192.rank) ∈ dot_S2x32_S32x8192_S2x8192_1_0_0_1_n_n.rhsNonContracting by decide)]
  rfl

/-- The matrix product into a zero accumulator, at row `h` and lane `q`: the sum over the 32 contracted positions of
    the left operand's row times the right operand's column. -/
theorem mm_readTwo (L : FVec Ideal S2x32 .bf16) (R : FVec Ideal S32x8192 .bf16) (h : Fin 2) (q : Fin 8192) :
    matmul dot_S2x32_S32x8192_S2x8192_1_0_0_1_n_n none L R (constant S2x8192 .f32 0x00000000#32) (ix2 h q) = ∑ k : Fin 32, L (ix2 h k) * R (ix2 k q) := by
  simp only [matmul]
  rw [Ideal.matmul_constant_zero_apply, ← Equiv.sum_comp (contrEquiv1 dot_S2x32_S32x8192_S2x8192_1_0_0_1_n_n 32 rfl rfl).symm]
  refine Finset.sum_congr rfl fun k _ => ?_
  have hk := contrEquiv1_symm_val dot_S2x32_S32x8192_S2x8192_1_0_0_1_n_n 32 rfl rfl k
  have el : dot_S2x32_S32x8192_S2x8192_1_0_0_1_n_n.lhsIdx (ix2 h q) ((contrEquiv1 dot_S2x32_S32x8192_S2x8192_1_0_0_1_n_n 32 rfl rfl).symm k) = ix2 h k := funext fun a => Fin.ext (by
    match a with
    | ⟨0, _⟩ => exact lhs0_readTwo _ _
    | ⟨1, _⟩ => exact (lhs1_readTwo _ _).trans hk)
  have er : dot_S2x32_S32x8192_S2x8192_1_0_0_1_n_n.rhsIdx (ix2 h q) ((contrEquiv1 dot_S2x32_S32x8192_S2x8192_1_0_0_1_n_n 32 rfl rfl).symm k) = ix2 k q := funext fun a => Fin.ext (by
    match a with
    | ⟨0, _⟩ => exact (rhs0_readTwo _ _).trans hk
    | ⟨1, _⟩ => exact rhs1_readTwo _ _)
  rw [el, er]

/-- The layer as the body writes it: the weights (kept `[out, in]`) times the activations, plus the bias column
    broadcast along the lanes. -/
def readTwo (w : Vec Ideal S2x32 .f32) (a : FVec Ideal S32x8192 .f32) (b : Vec Ideal S2x1 .f32) : FVec Ideal S2x8192 .f32 :=
  addf (matmul dot_S2x32_S32x8192_S2x8192_1_0_0_1_n_n none (truncf .bf16 (shapeCast S2x32 w shapeCasts_S2x32_S2x32) bitsLt_bf16_f32) (truncf .bf16 a bitsLt_bf16_f32) (constant S2x8192 .f32 0x00000000#32))
    (broadcastTo S2x8192 (shapeCast S2x1 b shapeCasts_S2x1_S2x1) broadcasts_S2x1_S2x8192)

/-- At unit `h` and lane `q` it is the specification's layer of lane `q`'s activations, the weight matrix read
    transposed (products commute under the sum). -/
theorem readTwo_apply (w : Vec Ideal S2x32 .f32) (a : FVec Ideal S32x8192 .f32) (b : Vec Ideal S2x1 .f32) (h : Fin 2) (q : Fin 8192) :
    readTwo w a b (ix2 h q) = affine (fun k => a (ix2 k q)) (fun k h => w (ix2 h k)) (fun h => b (ix2 h 0)) h := by
  unfold readTwo
  skip
  refine Eq.trans ?_ (congrFun (affineT_eq (fun k => a (ix2 k q)) (fun k h => w (ix2 h k)) (fun h => b (ix2 h 0))) h)
  unfold affineT
  refine congrArg₂ (· + ·) ?_ ?_
  · rw [shapeCast_self]
    exact mm_readTwo _ _ h q
  · rw [shapeCast_self]
    exact bias_2 b h q

/-! ## 1 units reading 32 activations -/

theorem lhs0_readOne (i : S1x8192.Idx) (q : dot_S1x32_S32x8192_S1x8192_1_0_0_1_n_n.contr.Idx) : (dot_S1x32_S32x8192_S1x8192_1_0_0_1_n_n.lhsIdx i q 0).val = (i 0).val := by
  unfold DotDims.lhsIdx
  rw [dif_neg (show ¬(0 : Fin S1x32.rank) ∈ dot_S1x32_S32x8192_S1x8192_1_0_0_1_n_n.lhsBatch by decide), dif_pos (show (0 : Fin S1x32.rank) ∈ dot_S1x32_S32x8192_S1x8192_1_0_0_1_n_n.lhsNonContracting by decide)]
  rfl
theorem lhs1_readOne (i : S1x8192.Idx) (q : dot_S1x32_S32x8192_S1x8192_1_0_0_1_n_n.contr.Idx) : (dot_S1x32_S32x8192_S1x8192_1_0_0_1_n_n.lhsIdx i q 1).val = (q ⟨0, by decide⟩).val :=
  dot_S1x32_S32x8192_S1x8192_1_0_0_1_n_n.lhsIdx_val_of_single rfl i q
theorem rhs0_readOne (i : S1x8192.Idx) (q : dot_S1x32_S32x8192_S1x8192_1_0_0_1_n_n.contr.Idx) : (dot_S1x32_S32x8192_S1x8192_1_0_0_1_n_n.rhsIdx i q 0).val = (q ⟨0, by decide⟩).val :=
  dot_S1x32_S32x8192_S1x8192_1_0_0_1_n_n.rhsIdx_val_of_single rfl i q
theorem rhs1_readOne (i : S1x8192.Idx) (q : dot_S1x32_S32x8192_S1x8192_1_0_0_1_n_n.contr.Idx) : (dot_S1x32_S32x8192_S1x8192_1_0_0_1_n_n.rhsIdx i q 1).val = (i 1).val := by
  unfold DotDims.rhsIdx
  rw [dif_neg (show ¬(1 : Fin S32x8192.rank) ∈ dot_S1x32_S32x8192_S1x8192_1_0_0_1_n_n.rhsBatch by decide), dif_pos (show (1 : Fin S32x8192.rank) ∈ dot_S1x32_S32x8192_S1x8192_1_0_0_1_n_n.rhsNonContracting by decide)]
  rfl

/-- The matrix product into a zero accumulator, at row `h` and lane `q`: the sum over the 32 contracted positions of
    the left operand's row times the right operand's column. -/
theorem mm_readOne (L : FVec Ideal S1x32 .bf16) (R : FVec Ideal S32x8192 .bf16) (h : Fin 1) (q : Fin 8192) :
    matmul dot_S1x32_S32x8192_S1x8192_1_0_0_1_n_n none L R (constant S1x8192 .f32 0x00000000#32) (ix2 h q) = ∑ k : Fin 32, L (ix2 h k) * R (ix2 k q) := by
  simp only [matmul]
  rw [Ideal.matmul_constant_zero_apply, ← Equiv.sum_comp (contrEquiv1 dot_S1x32_S32x8192_S1x8192_1_0_0_1_n_n 32 rfl rfl).symm]
  refine Finset.sum_congr rfl fun k _ => ?_
  have hk := contrEquiv1_symm_val dot_S1x32_S32x8192_S1x8192_1_0_0_1_n_n 32 rfl rfl k
  have el : dot_S1x32_S32x8192_S1x8192_1_0_0_1_n_n.lhsIdx (ix2 h q) ((contrEquiv1 dot_S1x32_S32x8192_S1x8192_1_0_0_1_n_n 32 rfl rfl).symm k) = ix2 h k := funext fun a => Fin.ext (by
    match a with
    | ⟨0, _⟩ => exact lhs0_readOne _ _
    | ⟨1, _⟩ => exact (lhs1_readOne _ _).trans hk)
  have er : dot_S1x32_S32x8192_S1x8192_1_0_0_1_n_n.rhsIdx (ix2 h q) ((contrEquiv1 dot_S1x32_S32x8192_S1x8192_1_0_0_1_n_n 32 rfl rfl).symm k) = ix2 k q := funext fun a => Fin.ext (by
    match a with
    | ⟨0, _⟩ => exact (rhs0_readOne _ _).trans hk
    | ⟨1, _⟩ => exact rhs1_readOne _ _)
  rw [el, er]

/-- The layer as the body writes it: the weights (kept `[out, in]`) times the activations, plus the bias column
    broadcast along the lanes. -/
def readOne (w : Vec Ideal S1x32 .f32) (a : FVec Ideal S32x8192 .f32) (b : Vec Ideal S1x1 .f32) : FVec Ideal S1x8192 .f32 :=
  addf (matmul dot_S1x32_S32x8192_S1x8192_1_0_0_1_n_n none (truncf .bf16 (shapeCast S1x32 w shapeCasts_S1x32_S1x32) bitsLt_bf16_f32) (truncf .bf16 a bitsLt_bf16_f32) (constant S1x8192 .f32 0x00000000#32))
    (broadcastTo S1x8192 (shapeCast S1x1 b shapeCasts_S1x1_S1x1) broadcasts_S1x1_S1x8192)

/-- At unit `h` and lane `q` it is the specification's layer of lane `q`'s activations, the weight matrix read
    transposed (products commute under the sum). -/
theorem readOne_apply (w : Vec Ideal S1x32 .f32) (a : FVec Ideal S32x8192 .f32) (b : Vec Ideal S1x1 .f32) (h : Fin 1) (q : Fin 8192) :
    readOne w a b (ix2 h q) = affine (fun k => a (ix2 k q)) (fun k h => w (ix2 h k)) (fun h => b (ix2 h 0)) h := by
  unfold readOne
  skip
  refine Eq.trans ?_ (congrFun (affineT_eq (fun k => a (ix2 k q)) (fun k h => w (ix2 h k)) (fun h => b (ix2 h 0))) h)
  unfold affineT
  refine congrArg₂ (· + ·) ?_ ?_
  · rw [shapeCast_self]
    exact mm_readOne _ _ h q
  · rw [shapeCast_self]
    exact bias_1 b h q

end Cert.Damping.Kern

end
-- ==== Proof.Body.lean ====
/-
  What the kernel's body leaves in its output block, read at a row and a lane.

  The body holds the block of samples as two rows of lanes, `x₀` over `x₁`. It runs the first perceptron on every
  lane and keeps both rows of `(max d 0 + δ) · x` (the factor's diagonal, `a` over `b`), runs the second perceptron for
  the row `c`, cuts `a`, `b`, `x₀`, `x₁` out as single rows, forms the two rows of `L Lᵀ x` entrywise and stacks them. So
  row `j`, lane `q` of the stored block is coordinate `j` of the specification's map at the sample whose coordinates
  are column `q` of the input block — with every weight matrix read transposed and every bias read off a column.
-/
import proofs.«177417_j82884278878217_1_alg».proof.Proof.Gen.KernelIdeal.Skeleton
import proofs.«177417_j82884278878217_1_alg».proof.Proof.Gen.KernelIdeal.Frame
import proofs.«177417_j82884278878217_1_alg».proof.Proof.Layers
import Idealize.ShloMosaic.Lib.ValueLayout

noncomputable section

namespace Cert.Damping.Kern

open Idealize.ShloMosaic Idealize.ShloMosaic.TcCoe Idealize.SL.Sem Idealize.ShloMosaic.ValueIdx
open Cert.KernelIdeal Cert.KernelIdeal.Gen Cert.Damping

/-! ## The first perceptron and the diagonal -/

/-- The body's first payload is the three layers composed, clipped at the zero splat, shifted by the floor column and
    scaled by the input block. -/
theorem pay3_eq (v0 : Vec Ideal S2x8192 .f32) (v3 : Vec Ideal S32x2 .f32) (v7 : Vec Ideal S32x1 .f32) (v12 : Vec Ideal S32x32 .f32) (v17 : Vec Ideal S32x1 .f32)
    (v22 : Vec Ideal S2x32 .f32) (v27 v33 : Vec Ideal S2x1 .f32) :
    k0_pay3 (F := Ideal) v0 v3 v7 v12 v17 v22 v27 v33
      = mulf (addf (maximumf (readTwo v22 (hidFromHid v12 (hidFromX v3 (k0_pay2 v0) v7) v17) v27)
            (broadcast S2x8192 (Scalar.ofBits .f32 0x00000000#32)))
          (broadcastTo S2x8192 (shapeCast S2x1 v33 shapeCasts_S2x1_S2x1) broadcasts_S2x1_S2x8192)) (k0_pay1 v0) := rfl

/-- The input block, cast to its own shape and rounded to the narrow format, is itself. -/
theorem pay1_eq (v0 : Vec Ideal S2x8192 .f32) : k0_pay1 (F := Ideal) v0 = v0 := by
  unfold k0_pay1; exact shapeCast_self _ _
theorem pay2_eq (v0 : Vec Ideal S2x8192 .f32) : k0_pay2 (F := Ideal) v0 = v0 := by
  unfold k0_pay2; rw [pay1_eq]; rfl

/-- Row `j`, lane `q` of the first payload: entry `j` of the factor's diagonal at lane `q`'s sample. -/
theorem pay3_apply (v0 : Vec Ideal S2x8192 .f32) (v3 : Vec Ideal S32x2 .f32) (v7 : Vec Ideal S32x1 .f32) (v12 : Vec Ideal S32x32 .f32) (v17 : Vec Ideal S32x1 .f32)
    (v22 : Vec Ideal S2x32 .f32) (v27 v33 : Vec Ideal S2x1 .f32) (j : Fin 2) (q : Fin 8192) :
    k0_pay3 (F := Ideal) v0 v3 v7 v12 v17 v22 v27 v33 (ix2 j q)
      = diagEntry (fun k => v0 (ix2 k q)) (fun k h => v3 (ix2 h k)) (fun k h => v12 (ix2 h k)) (fun k j => v22 (ix2 j k))
          (fun h => v7 (ix2 h 0)) (fun h => v17 (ix2 h 0)) (fun j => v27 (ix2 j 0)) zeroWord (fun j => v33 (ix2 j 0)) j := by
  rw [pay3_eq, pay2_eq, pay1_eq]
  unfold diagEntry
  show (max (readTwo v22 (hidFromHid v12 (hidFromX v3 v0 v7) v17) v27 (ix2 j q)) zeroWord
      + broadcastTo S2x8192 (shapeCast S2x1 v33 shapeCasts_S2x1_S2x1) broadcasts_S2x1_S2x8192 (ix2 j q)) * v0 (ix2 j q) = _
  rw [readTwo_apply, shapeCast_self, bias_2]
  simp only [hidFromHid_apply, hidFromX_apply]

/-! ## The second perceptron -/

/-- The off-diagonal row as the body computes it. -/
def offRow (v2 : FVec Ideal S2x8192 .bf16) (v38 : Vec Ideal S32x2 .f32) (v42 : Vec Ideal S32x1 .f32) (v47 : Vec Ideal S32x32 .f32) (v52 : Vec Ideal S32x1 .f32)
    (v57 : Vec Ideal S1x32 .f32) (v62 : Vec Ideal S1x1 .f32) : FVec Ideal S1x8192 .f32 :=
  readOne v57 (hidFromHid v47 (hidFromX v38 v2 v42) v52) v62

theorem offRow_apply (v2 : FVec Ideal S2x8192 .bf16) (v38 : Vec Ideal S32x2 .f32) (v42 : Vec Ideal S32x1 .f32) (v47 : Vec Ideal S32x32 .f32) (v52 : Vec Ideal S32x1 .f32)
    (v57 : Vec Ideal S1x32 .f32) (v62 : Vec Ideal S1x1 .f32) (q : Fin 8192) :
    offRow v2 v38 v42 v47 v52 v57 v62 (ix2 0 q)
      = offEntry (fun k => v2 (ix2 k q)) (fun k h => v38 (ix2 h k)) (fun k h => v47 (ix2 h k)) (fun k j => v57 (ix2 j k))
          (fun h => v42 (ix2 h 0)) (fun h => v52 (ix2 h 0)) (fun j => v62 (ix2 j 0)) := by
  unfold offRow offEntry
  rw [readOne_apply]
  simp only [hidFromHid_apply, hidFromX_apply]

/-! ## The two rows stacked -/

/-- The body's last payload: the two rows of `L Lᵀ x`, formed entrywise from single rows cut out of the diagonal block
    `v37` and the input block `v1`, stacked along the row axis. -/
theorem pay4_eq (v1 : FVec Ideal S2x8192 .f32) (v2 : FVec Ideal S2x8192 .bf16) (v37 : FVec Ideal S2x8192 .f32) (v38 : Vec Ideal S32x2 .f32)
    (v42 : Vec Ideal S32x1 .f32) (v47 : Vec Ideal S32x32 .f32) (v52 : Vec Ideal S32x1 .f32) (v57 : Vec Ideal S1x32 .f32) (v62 : Vec Ideal S1x1 .f32) :
    k0_pay4 (F := Ideal) v1 v2 v37 v38 v42 v47 v52 v57 v62
      = concatenate S2x8192 0
          [⟨S1x8192, addf (mulf (mulf (extractStridedSlice S1x8192 ![0, 0] v37 slices_S2x8192_o0_0_S1x8192) (extractStridedSlice S1x8192 ![0, 0] v37 slices_S2x8192_o0_0_S1x8192)) (extractStridedSlice S1x8192 ![0, 0] v1 slices_S2x8192_o0_0_S1x8192))
              (mulf (mulf (extractStridedSlice S1x8192 ![0, 0] v37 slices_S2x8192_o0_0_S1x8192) (offRow v2 v38 v42 v47 v52 v57 v62)) (extractStridedSlice S1x8192 ![1, 0] v1 slices_S2x8192_o1_0_S1x8192))⟩,
           ⟨S1x8192, addf (mulf (mulf (extractStridedSlice S1x8192 ![0, 0] v37 slices_S2x8192_o0_0_S1x8192) (offRow v2 v38 v42 v47 v52 v57 v62)) (extractStridedSlice S1x8192 ![0, 0] v1 slices_S2x8192_o0_0_S1x8192))
              (mulf (addf (mulf (offRow v2 v38 v42 v47 v52 v57 v62) (offRow v2 v38 v42 v47 v52 v57 v62)) (mulf (extractStridedSlice S1x8192 ![1, 0] v37 slices_S2x8192_o1_0_S1x8192) (extractStridedSlice S1x8192 ![1, 0] v37 slices_S2x8192_o1_0_S1x8192))) (extractStridedSlice S1x8192 ![1, 0] v1 slices_S2x8192_o1_0_S1x8192))⟩]
          concatenates_S1x8192_S1x8192_S2x8192_d0 := rfl

/-- Row 0 cut out of a two-row block. -/
theorem cut0 (v : FVec Ideal S2x8192 .f32) (q : Fin 8192) :
    extractStridedSlice S1x8192 ![0, 0] v slices_S2x8192_o0_0_S1x8192 (ix2 0 q) = v (ix2 0 q) :=
  slice2_axis0_apply 0 v slices_S2x8192_o0_0_S1x8192 (0 : Fin 1) q (0 : Fin 2) rfl
/-- Row 1 cut out of a two-row block. -/
theorem cut1 (v : FVec Ideal S2x8192 .f32) (q : Fin 8192) :
    extractStridedSlice S1x8192 ![1, 0] v slices_S2x8192_o1_0_S1x8192 (ix2 0 q) = v (ix2 1 q) :=
  slice2_axis0_apply 1 v slices_S2x8192_o1_0_S1x8192 (0 : Fin 1) q (1 : Fin 2) rfl

/-- Row `j`, lane `q` of the last payload: coordinate `j` of `L Lᵀ x` from the diagonal block's column, the second
    perceptron's read-out and the input block's column. -/
theorem pay4_apply (v1 : FVec Ideal S2x8192 .f32) (v2 : FVec Ideal S2x8192 .bf16) (v37 : FVec Ideal S2x8192 .f32) (v38 : Vec Ideal S32x2 .f32)
    (v42 : Vec Ideal S32x1 .f32) (v47 : Vec Ideal S32x32 .f32) (v52 : Vec Ideal S32x1 .f32) (v57 : Vec Ideal S1x32 .f32) (v62 : Vec Ideal S1x1 .f32) (j : Fin 2) (q : Fin 8192) :
    k0_pay4 (F := Ideal) v1 v2 v37 v38 v42 v47 v52 v57 v62 (ix2 j q)
      = quad (v37 (ix2 0 q)) (v37 (ix2 1 q))
          (offEntry (fun k => v2 (ix2 k q)) (fun k h => v38 (ix2 h k)) (fun k h => v47 (ix2 h k)) (fun k j => v57 (ix2 j k))
            (fun h => v42 (ix2 h 0)) (fun h => v52 (ix2 h 0)) (fun j => v62 (ix2 j 0)))
          (v1 (ix2 0 q)) (v1 (ix2 1 q)) j := by
  rw [pay4_eq, ← offRow_apply]
  match j with
  | ⟨0, _⟩ =>
    refine (concatenate_pair_apply_left (t := S2x8192) (s₁ := S1x8192) (s₂ := S1x8192) (0 : Fin 2) _ _
      concatenates_S1x8192_S1x8192_S2x8192_d0 _ rfl (ix2 (0 : Fin 1) q)
      (fun b => by match b with | ⟨0, _⟩ => rfl | ⟨1, _⟩ => rfl)).trans ?_
    show extractStridedSlice S1x8192 ![0, 0] v37 slices_S2x8192_o0_0_S1x8192 (ix2 0 q) * extractStridedSlice S1x8192 ![0, 0] v37 slices_S2x8192_o0_0_S1x8192 (ix2 0 q) * extractStridedSlice S1x8192 ![0, 0] v1 slices_S2x8192_o0_0_S1x8192 (ix2 0 q)
        + extractStridedSlice S1x8192 ![0, 0] v37 slices_S2x8192_o0_0_S1x8192 (ix2 0 q) * offRow v2 v38 v42 v47 v52 v57 v62 (ix2 0 q) * extractStridedSlice S1x8192 ![1, 0] v1 slices_S2x8192_o1_0_S1x8192 (ix2 0 q) = _
    rw [cut0, cut0, cut1]
    rfl
  | ⟨1, _⟩ =>
    refine (concatenate_pair_apply_right (t := S2x8192) (s₁ := S1x8192) (s₂ := S1x8192) (0 : Fin 2) _ _
      concatenates_S1x8192_S1x8192_S2x8192_d0 _ rfl rfl (ix2 (0 : Fin 1) q)
      (fun b hb => by match b, hb with | ⟨0, _⟩, hb => exact absurd rfl hb | ⟨1, _⟩, _ => rfl) rfl).trans ?_
    show extractStridedSlice S1x8192 ![0, 0] v37 slices_S2x8192_o0_0_S1x8192 (ix2 0 q) * offRow v2 v38 v42 v47 v52 v57 v62 (ix2 0 q) * extractStridedSlice S1x8192 ![0, 0] v1 slices_S2x8192_o0_0_S1x8192 (ix2 0 q)
        + (offRow v2 v38 v42 v47 v52 v57 v62 (ix2 0 q) * offRow v2 v38 v42 v47 v52 v57 v62 (ix2 0 q) + extractStridedSlice S1x8192 ![1, 0] v37 slices_S2x8192_o1_0_S1x8192 (ix2 0 q) * extractStridedSlice S1x8192 ![1, 0] v37 slices_S2x8192_o1_0_S1x8192 (ix2 0 q)) * extractStridedSlice S1x8192 ![1, 0] v1 slices_S2x8192_o1_0_S1x8192 (ix2 0 q) = _
    rw [cut0, cut0, cut1, cut1]
    rfl

/-! ## The stored block -/

theorem hz : (![0, 0] : Fin 2 → Nat) = fun _ => 0 := funext fun a => by fin_cases a <;> rfl

/-- THE BLOCK the body leaves in the output window's buffer, from the fourteen input blocks: row `j`, lane `q` is the
    specification's map at the sample that is column `q` of the input block `x0`, the weights read transposed, the biases
    and the floor read off their columns. -/
theorem block_apply (x0 : Vec Ideal S2x8192 .f32) (x1 : Vec Ideal S32x2 .f32) (x2 : Vec Ideal S32x32 .f32) (x3 : Vec Ideal S2x32 .f32) (x4 : Vec Ideal S32x2 .f32)
    (x5 : Vec Ideal S32x32 .f32) (x6 : Vec Ideal S1x32 .f32) (x7 x8 : Vec Ideal S32x1 .f32) (x9 : Vec Ideal S2x1 .f32) (x10 x11 : Vec Ideal S32x1 .f32) (x12 : Vec Ideal S1x1 .f32)
    (x13 : Vec Ideal S2x1 .f32) (j : Fin 2) (q : Fin 8192) :
    out0_14 (F := Ideal) x0 x1 x2 x3 x4 x5 x6 x7 x8 x9 x10 x11 x12 x13 (ix2 j q)
      = sample (fun k => x0 (ix2 k q)) (fun k h => x1 (ix2 h k)) (fun k h => x2 (ix2 h k)) (fun k j => x3 (ix2 j k))
          (fun k h => x4 (ix2 h k)) (fun k h => x5 (ix2 h k)) (fun k j => x6 (ix2 j k))
          (fun h => x7 (ix2 h 0)) (fun h => x8 (ix2 h 0)) (fun j => x9 (ix2 j 0))
          (fun h => x10 (ix2 h 0)) (fun h => x11 (ix2 h 0)) (fun j => x12 (ix2 j 0)) zeroWord (fun j => x13 (ix2 j 0)) j := by
  unfold out0_14
  rw [View.canon_unit_zero hz]
  simp only [View.ld_unit_zero (S := S2x8192) hz, View.ld_unit_zero (S := S32x2) hz, View.ld_unit_zero (S := S32x32) hz,
    View.ld_unit_zero (S := S2x32) hz, View.ld_unit_zero (S := S1x32) hz, View.ld_unit_zero (S := S32x1) hz,
    View.ld_unit_zero (S := S2x1) hz, View.ld_unit_zero (S := S1x1) hz]
  rw [pay4_apply, pay3_apply, pay3_apply, pay2_eq, pay1_eq]
  rfl

end Cert.Damping.Kern

end
-- ==== Proof.Region.lean ====
/-
  The kernel's program around the body: what each window's block holds, what the region leaves in its output array,
  and what the program returns.

  Before the region the host lays the arguments out for the kernel: the samples as columns (the input transposed,
  `[2, 1048576]`), every weight matrix transposed to `[out, in]`, every bias as a column, and the floor `δ` as a
  column of a constant. The grid has 128 points; point `t` is given lanes `8192·t … 8192·t + 8191` of the input and of
  the output, and the whole of every other array. So lane `q` of point `t` is sample `8192·t + q`, and by the body's
  block (Body.lean) what point `t` writes back is the specification's result, transposed, on those lanes. The
  blocks tile the output array, so after the region it holds the transposed result everywhere; the one host line
  after the region transposes it back.
-/
import proofs.«177417_j82884278878217_1_alg».proof.Proof.Gen.KernelIdeal.Frame
import proofs.«177417_j82884278878217_1_alg».proof.Proof.Body
import Idealize.ShloMosaic.Lib.StableHlo.Run
import Idealize.ShloMosaic.Lib.Pipeline.Value
import Idealize.ShloMosaic.Lib.ValueLayout

set_option maxRecDepth 16384

noncomputable section

namespace Cert.Damping.Kern

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Damping

variable (m : (ℓ : Loc nD τ sig) → Buf (Elt Ideal) ℓ) (ρ : Dev nD → PrngReg)

/-! ## The arrays the host lays out before the region -/

/-- Window 0's array is argument 0 transposed. -/
theorem V_v0 (c : Dev nD) (a : Fin 2) (b : Fin 1048576) :
    (V m c main_v0 : S2x1048576.Idx → EReal) (ix2 a b) = (m ((c : Thread nD τ).loc main_arg0) : S1048576x2.Idx → EReal) (ix2 b a) := by
  have e : (V m c main_v0 : S2x1048576.Idx → EReal) = transpose S2x1048576 [1, 0] (m ((c : Thread nD τ).loc main_arg0)) transposes_S1048576x2_S2x1048576_1_0 := by
    show StableHlo.after hostOps0 (fun b => m (c, b)) (Proc.devRef .tc main_v0) = _
    after_results
  exact (congrFun e _).trans (transpose_ix2_apply _ transposes_S1048576x2_S2x1048576_1_0 a b)

/-- Window 1's array is argument 1 transposed. -/
theorem V_v1 (c : Dev nD) (a : Fin 32) (b : Fin 2) :
    (V m c main_v1 : S32x2.Idx → EReal) (ix2 a b) = (m ((c : Thread nD τ).loc main_arg1) : S2x32.Idx → EReal) (ix2 b a) := by
  have e : (V m c main_v1 : S32x2.Idx → EReal) = transpose S32x2 [1, 0] (m ((c : Thread nD τ).loc main_arg1)) transposes_S2x32_S32x2_1_0 := by
    show StableHlo.after hostOps0 (fun b => m (c, b)) (Proc.devRef .tc main_v1) = _
    after_results
  exact (congrFun e _).trans (transpose_ix2_apply _ transposes_S2x32_S32x2_1_0 a b)

/-- Window 2's array is argument 2 transposed. -/
theorem V_v2 (c : Dev nD) (a : Fin 32) (b : Fin 32) :
    (V m c main_v2 : S32x32.Idx → EReal) (ix2 a b) = (m ((c : Thread nD τ).loc main_arg2) : S32x32.Idx → EReal) (ix2 b a) := by
  have e : (V m c main_v2 : S32x32.Idx → EReal) = transpose S32x32 [1, 0] (m ((c : Thread nD τ).loc main_arg2)) transposes_S32x32_S32x32_1_0 := by
    show StableHlo.after hostOps0 (fun b => m (c, b)) (Proc.devRef .tc main_v2) = _
    after_results
  exact (congrFun e _).trans (transpose_ix2_apply _ transposes_S32x32_S32x32_1_0 a b)

/-- Window 3's array is argument 3 transposed. -/
theorem V_v3 (c : Dev nD) (a : Fin 2) (b : Fin 32) :
    (V m c main_v3 : S2x32.Idx → EReal) (ix2 a b) = (m ((c : Thread nD τ).loc main_arg3) : S32x2.Idx → EReal) (ix2 b a) := by
  have e : (V m c main_v3 : S2x32.Idx → EReal) = transpose S2x32 [1, 0] (m ((c : Thread nD τ).loc main_arg3)) transposes_S32x2_S2x32_1_0 := by
    show StableHlo.after hostOps0 (fun b => m (c, b)) (Proc.devRef .tc main_v3) = _
    after_results
  exact (congrFun e _).trans (transpose_ix2_apply _ transposes_S32x2_S2x32_1_0 a b)

/-- Window 4's array is argument 4 transposed. -/
theorem V_v4 (c : Dev nD) (a : Fin 32) (b : Fin 2) :
    (V m c main_v4 : S32x2.Idx → EReal) (ix2 a b) = (m ((c : Thread nD τ).loc main_arg4) : S2x32.Idx → EReal) (ix2 b a) := by
  have e : (V m c main_v4 : S32x2.Idx → EReal) = transpose S32x2 [1, 0] (m ((c : Thread nD τ).loc main_arg4)) transposes_S2x32_S32x2_1_0 := by
    show StableHlo.after hostOps0 (fun b => m (c, b)) (Proc.devRef .tc main_v4) = _
    after_results
  exact (congrFun e _).trans (transpose_ix2_apply _ transposes_S2x32_S32x2_1_0 a b)

/-- Window 5's array is argument 5 transposed. -/
theorem V_v5 (c : Dev nD) (a : Fin 32) (b : Fin 32) :
    (V m c main_v5 : S32x32.Idx → EReal) (ix2 a b) = (m ((c : Thread nD τ).loc main_arg5) : S32x32.Idx → EReal) (ix2 b a) := by
  have e : (V m c main_v5 : S32x32.Idx → EReal) = transpose S32x32 [1, 0] (m ((c : Thread nD τ).loc main_arg5)) transposes_S32x32_S32x32_1_0 := by
    show StableHlo.after hostOps0 (fun b => m (c, b)) (Proc.devRef .tc main_v5) = _
    after_results
  exact (congrFun e _).trans (transpose_ix2_apply _ transposes_S32x32_S32x32_1_0 a b)

/-- Window 6's array is argument 6 transposed. -/
theorem V_v6 (c : Dev nD) (a : Fin 1) (b : Fin 32) :
    (V m c main_v6 : S1x32.Idx → EReal) (ix2 a b) = (m ((c : Thread nD τ).loc main_arg6) : S32x1.Idx → EReal) (ix2 b a) := by
  have e : (V m c main_v6 : S1x32.Idx → EReal) = transpose S1x32 [1, 0] (m ((c : Thread nD τ).loc main_arg6)) transposes_S32x1_S1x32_1_0 := by
    show StableHlo.after hostOps0 (fun b => m (c, b)) (Proc.devRef .tc main_v6) = _
    after_results
  exact (congrFun e _).trans (transpose_ix2_apply _ transposes_S32x1_S1x32_1_0 a b)

/-- Window 7's array is argument 7 as a column. -/
theorem V_v7 (c : Dev nD) (h : Fin 32) :
    (V m c main_v7 : S32x1.Idx → EReal) (ix2 h 0) = (m ((c : Thread nD τ).loc main_arg7) : S32.Idx → EReal) (ix1 h) := by
  have e : (V m c main_v7 : S32x1.Idx → EReal) = shapeCast S32x1 (m ((c : Thread nD τ).loc main_arg7)) shapeCasts_S32_S32x1 := by
    show StableHlo.after hostOps0 (fun b => m (c, b)) (Proc.devRef .tc main_v7) = _
    after_results; rfl
  refine (congrFun e _).trans (shapeCast_apply _ shapeCasts_S32_S32x1 (ix2 h 0) (ix1 h) ?_)
  rewrite [Shape.rowMajor_val_one, Shape.rowMajor_val_two]
  show h.val = h.val * 1 + 0
  omega

/-- Window 8's array is argument 8 as a column. -/
theorem V_v8 (c : Dev nD) (h : Fin 32) :
    (V m c main_v8 : S32x1.Idx → EReal) (ix2 h 0) = (m ((c : Thread nD τ).loc main_arg8) : S32.Idx → EReal) (ix1 h) := by
  have e : (V m c main_v8 : S32x1.Idx → EReal) = shapeCast S32x1 (m ((c : Thread nD τ).loc main_arg8)) shapeCasts_S32_S32x1 := by
    show StableHlo.after hostOps0 (fun b => m (c, b)) (Proc.devRef .tc main_v8) = _
    after_results; rfl
  refine (congrFun e _).trans (shapeCast_apply _ shapeCasts_S32_S32x1 (ix2 h 0) (ix1 h) ?_)
  rewrite [Shape.rowMajor_val_one, Shape.rowMajor_val_two]
  show h.val = h.val * 1 + 0
  omega

/-- Window 9's array is argument 9 as a column. -/
theorem V_v9 (c : Dev nD) (h : Fin 2) :
    (V m c main_v9 : S2x1.Idx → EReal) (ix2 h 0) = (m ((c : Thread nD τ).loc main_arg9) : S2.Idx → EReal) (ix1 h) := by
  have e : (V m c main_v9 : S2x1.Idx → EReal) = shapeCast S2x1 (m ((c : Thread nD τ).loc main_arg9)) shapeCasts_S2_S2x1 := by
    show StableHlo.after hostOps0 (fun b => m (c, b)) (Proc.devRef .tc main_v9) = _
    after_results; rfl
  refine (congrFun e _).trans (shapeCast_apply _ shapeCasts_S2_S2x1 (ix2 h 0) (ix1 h) ?_)
  rewrite [Shape.rowMajor_val_one, Shape.rowMajor_val_two]
  show h.val = h.val * 1 + 0
  omega

/-- Window 10's array is argument 10 as a column. -/
theorem V_v10 (c : Dev nD) (h : Fin 32) :
    (V m c main_v10 : S32x1.Idx → EReal) (ix2 h 0) = (m ((c : Thread nD τ).loc main_arg10) : S32.Idx → EReal) (ix1 h) := by
  have e : (V m c main_v10 : S32x1.Idx → EReal) = shapeCast S32x1 (m ((c : Thread nD τ).loc main_arg10)) shapeCasts_S32_S32x1 := by
    show StableHlo.after hostOps0 (fun b => m (c, b)) (Proc.devRef .tc main_v10) = _
    after_results; rfl
  refine (congrFun e _).trans (shapeCast_apply _ shapeCasts_S32_S32x1 (ix2 h 0) (ix1 h) ?_)
  rewrite [Shape.rowMajor_val_one, Shape.rowMajor_val_two]
  show h.val = h.val * 1 + 0
  omega

/-- Window 11's array is argument 11 as a column. -/
theorem V_v11 (c : Dev nD) (h : Fin 32) :
    (V m c main_v11 : S32x1.Idx → EReal) (ix2 h 0) = (m ((c : Thread nD τ).loc main_arg11) : S32.Idx → EReal) (ix1 h) := by
  have e : (V m c main_v11 : S32x1.Idx → EReal) = shapeCast S32x1 (m ((c : Thread nD τ).loc main_arg11)) shapeCasts_S32_S32x1 := by
    show StableHlo.after hostOps0 (fun b => m (c, b)) (Proc.devRef .tc main_v11) = _
    after_results; rfl
  refine (congrFun e _).trans (shapeCast_apply _ shapeCasts_S32_S32x1 (ix2 h 0) (ix1 h) ?_)
  rewrite [Shape.rowMajor_val_one, Shape.rowMajor_val_two]
  show h.val = h.val * 1 + 0
  omega

/-- Window 12's array is argument 12 as a column. -/
theorem V_v12 (c : Dev nD) (h : Fin 1) :
    (V m c main_v12 : S1x1.Idx → EReal) (ix2 h 0) = (m ((c : Thread nD τ).loc main_arg12) : S1.Idx → EReal) (ix1 h) := by
  have e : (V m c main_v12 : S1x1.Idx → EReal) = shapeCast S1x1 (m ((c : Thread nD τ).loc main_arg12)) shapeCasts_S1_S1x1 := by
    show StableHlo.after hostOps0 (fun b => m (c, b)) (Proc.devRef .tc main_v12) = _
    after_results; rfl
  refine (congrFun e _).trans (shapeCast_apply _ shapeCasts_S1_S1x1 (ix2 h 0) (ix1 h) ?_)
  rewrite [Shape.rowMajor_val_one, Shape.rowMajor_val_two]
  show h.val = h.val * 1 + 0
  omega

/-- Window 13's array is the floor `δ`, one word in both rows. -/
theorem V_v13 (c : Dev nD) (j : Fin 2) : (V m c main_v13 : S2x1.Idx → EReal) (ix2 j 0) = floorWord := by
  have e : (V m c main_v13 : S2x1.Idx → EReal) = shapeCast S2x1 (constant (F := Ideal) S2 .f32 0x3A83126F#32) shapeCasts_S2_S2x1 := by
    show StableHlo.after hostOps0 (fun b => m (c, b)) (Proc.devRef .tc main_v13) = _
    after_results; rfl
  refine (congrFun e _).trans ((shapeCast_apply _ shapeCasts_S2_S2x1 (ix2 j 0) (ix1 j) ?_).trans rfl)
  rewrite [Shape.rowMajor_val_one, Shape.rowMajor_val_two]
  show j.val = j.val * 1 + 0
  omega

/-! ## The windows' blocks -/

/-- The input's and the output's blocks move along the lanes with the point; -/
theorem idx_0 : ∀ t : Fin cfg0.N, win0_0.index t (0 : Fin 2) = 0 ∧ win0_0.index t (1 : Fin 2) = t.val :=
  (by decide +kernel : ∀ t : Fin grid0.N, _)
theorem idx_14 : ∀ t : Fin cfg0.N, win0_14.index t (0 : Fin 2) = 0 ∧ win0_14.index t (1 : Fin 2) = t.val :=
  (by decide +kernel : ∀ t : Fin grid0.N, _)
/-- every other window is its whole array at every point. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)

/-- The sample that lane `q` of point `t` holds. -/
def lane (t : Fin cfg0.N) (q : Fin 8192) : Fin 1048576 :=
  ⟨t.val * 8192 + q.val, by have h := t.isLt; have hN : cfg0.N = 128 := N_0; have := q.isLt; omega⟩

/-- The input window's block at point `t`: lane `q` is column `8192·t + q` of the transposed input. -/
theorem blk_0 (c : Dev nD) (t : Fin cfg0.N) (k : Fin 2) (q : Fin 8192) :
    (iblk m c 0 t : Vec Ideal S2x8192 .f32) (ix2 k q) = (V m c main_v0 : S2x1048576.Idx → EReal) (ix2 k (lane t q)) := by
  obtain ⟨e0, e1⟩ := idx_0 t
  unfold iblk
  rw [View.read_apply]
  show (V m c main_v0 : S2x1048576.Idx → EReal) _ = (V m c main_v0 : S2x1048576.Idx → EReal) _
  refine congrArg (V m c main_v0 : S2x1048576.Idx → EReal) ?_
  funext a; apply Fin.ext
  match a with
  | ⟨0, _⟩ => show win0_0.index t (0 : Fin 2) * 2 + 1 * k.val = k.val; rw [e0]; omega
  | ⟨1, _⟩ => show win0_0.index t (1 : Fin 2) * 8192 + 1 * q.val = t.val * 8192 + q.val; rw [e1]; omega

theorem blk_1 (c : Dev nD) (t : Fin cfg0.N) (y : S32x2.Idx) :
    (iblk m c 1 t : Vec Ideal S32x2 .f32) y = (V m c main_v1 : S32x2.Idx → EReal) y := by
  obtain ⟨e0, e1⟩ := idx_1 t
  unfold iblk
  rw [View.read_apply]
  show (V m c main_v1 : S32x2.Idx → EReal) _ = (V m c main_v1 : S32x2.Idx → EReal) _
  refine congrArg (V m c main_v1 : S32x2.Idx → EReal) ?_
  funext a; apply Fin.ext
  match a with
  | ⟨0, _⟩ => show win0_1.index t (0 : Fin 2) * 32 + 1 * (y 0).val = (y 0).val; rw [e0]; omega
  | ⟨1, _⟩ => show win0_1.index t (1 : Fin 2) * 2 + 1 * (y 1).val = (y 1).val; rw [e1]; omega

theorem blk_2 (c : Dev nD) (t : Fin cfg0.N) (y : S32x32.Idx) :
    (iblk m c 2 t : Vec Ideal S32x32 .f32) y = (V m c main_v2 : S32x32.Idx → EReal) y := by
  obtain ⟨e0, e1⟩ := idx_2 t
  unfold iblk
  rw [View.read_apply]
  show (V m c main_v2 : S32x32.Idx → EReal) _ = (V m c main_v2 : S32x32.Idx → EReal) _
  refine congrArg (V m c main_v2 : S32x32.Idx → EReal) ?_
  funext a; apply Fin.ext
  match a with
  | ⟨0, _⟩ => show win0_2.index t (0 : Fin 2) * 32 + 1 * (y 0).val = (y 0).val; rw [e0]; omega
  | ⟨1, _⟩ => show win0_2.index t (1 : Fin 2) * 32 + 1 * (y 1).val = (y 1).val; rw [e1]; omega

theorem blk_3 (c : Dev nD) (t : Fin cfg0.N) (y : S2x32.Idx) :
    (iblk m c 3 t : Vec Ideal S2x32 .f32) y = (V m c main_v3 : S2x32.Idx → EReal) y := by
  obtain ⟨e0, e1⟩ := idx_3 t
  unfold iblk
  rw [View.read_apply]
  show (V m c main_v3 : S2x32.Idx → EReal) _ = (V m c main_v3 : S2x32.Idx → EReal) _
  refine congrArg (V m c main_v3 : S2x32.Idx → EReal) ?_
  funext a; apply Fin.ext
  match a with
  | ⟨0, _⟩ => show win0_3.index t (0 : Fin 2) * 2 + 1 * (y 0).val = (y 0).val; rw [e0]; omega
  | ⟨1, _⟩ => show win0_3.index t (1 : Fin 2) * 32 + 1 * (y 1).val = (y 1).val; rw [e1]; omega

theorem blk_4 (c : Dev nD) (t : Fin cfg0.N) (y : S32x2.Idx) :
    (iblk m c 4 t : Vec Ideal S32x2 .f32) y = (V m c main_v4 : S32x2.Idx → EReal) y := by
  obtain ⟨e0, e1⟩ := idx_4 t
  unfold iblk
  rw [View.read_apply]
  show (V m c main_v4 : S32x2.Idx → EReal) _ = (V m c main_v4 : S32x2.Idx → EReal) _
  refine congrArg (V m c main_v4 : S32x2.Idx → EReal) ?_
  funext a; apply Fin.ext
  match a with
  | ⟨0, _⟩ => show win0_4.index t (0 : Fin 2) * 32 + 1 * (y 0).val = (y 0).val; rw [e0]; omega
  | ⟨1, _⟩ => show win0_4.index t (1 : Fin 2) * 2 + 1 * (y 1).val = (y 1).val; rw [e1]; omega

theorem blk_5 (c : Dev nD) (t : Fin cfg0.N) (y : S32x32.Idx) :
    (iblk m c 5 t : Vec Ideal S32x32 .f32) y = (V m c main_v5 : S32x32.Idx → EReal) y := by
  obtain ⟨e0, e1⟩ := idx_5 t
  unfold iblk
  rw [View.read_apply]
  show (V m c main_v5 : S32x32.Idx → EReal) _ = (V m c main_v5 : S32x32.Idx → EReal) _
  refine congrArg (V m c main_v5 : S32x32.Idx → EReal) ?_
  funext a; apply Fin.ext
  match a with
  | ⟨0, _⟩ => show win0_5.index t (0 : Fin 2) * 32 + 1 * (y 0).val = (y 0).val; rw [e0]; omega
  | ⟨1, _⟩ => show win0_5.index t (1 : Fin 2) * 32 + 1 * (y 1).val = (y 1).val; rw [e1]; omega

theorem blk_6 (c : Dev nD) (t : Fin cfg0.N) (y : S1x32.Idx) :
    (iblk m c 6 t : Vec Ideal S1x32 .f32) y = (V m c main_v6 : S1x32.Idx → EReal) y := by
  obtain ⟨e0, e1⟩ := idx_6 t
  unfold iblk
  rw [View.read_apply]
  show (V m c main_v6 : S1x32.Idx → EReal) _ = (V m c main_v6 : S1x32.Idx → EReal) _
  refine congrArg (V m c main_v6 : S1x32.Idx → EReal) ?_
  funext a; apply Fin.ext
  match a with
  | ⟨0, _⟩ => show win0_6.index t (0 : Fin 2) * 1 + 1 * (y 0).val = (y 0).val; rw [e0]; omega
  | ⟨1, _⟩ => show win0_6.index t (1 : Fin 2) * 32 + 1 * (y 1).val = (y 1).val; rw [e1]; omega

theorem blk_7 (c : Dev nD) (t : Fin cfg0.N) (y : S32x1.Idx) :
    (iblk m c 7 t : Vec Ideal S32x1 .f32) y = (V m c main_v7 : S32x1.Idx → EReal) y := by
  obtain ⟨e0, e1⟩ := idx_7 t
  unfold iblk
  rw [View.read_apply]
  show (V m c main_v7 : S32x1.Idx → EReal) _ = (V m c main_v7 : S32x1.Idx → EReal) _
  refine congrArg (V m c main_v7 : S32x1.Idx → EReal) ?_
  funext a; apply Fin.ext
  match a with
  | ⟨0, _⟩ => show win0_7.index t (0 : Fin 2) * 32 + 1 * (y 0).val = (y 0).val; rw [e0]; omega
  | ⟨1, _⟩ => show win0_7.index t (1 : Fin 2) * 1 + 1 * (y 1).val = (y 1).val; rw [e1]; omega

theorem blk_8 (c : Dev nD) (t : Fin cfg0.N) (y : S32x1.Idx) :
    (iblk m c 8 t : Vec Ideal S32x1 .f32) y = (V m c main_v8 : S32x1.Idx → EReal) y := by
  obtain ⟨e0, e1⟩ := idx_8 t
  unfold iblk
  rw [View.read_apply]
  show (V m c main_v8 : S32x1.Idx → EReal) _ = (V m c main_v8 : S32x1.Idx → EReal) _
  refine congrArg (V m c main_v8 : S32x1.Idx → EReal) ?_
  funext a; apply Fin.ext
  match a with
  | ⟨0, _⟩ => show win0_8.index t (0 : Fin 2) * 32 + 1 * (y 0).val = (y 0).val; rw [e0]; omega
  | ⟨1, _⟩ => show win0_8.index t (1 : Fin 2) * 1 + 1 * (y 1).val = (y 1).val; rw [e1]; omega

theorem blk_9 (c : Dev nD) (t : Fin cfg0.N) (y : S2x1.Idx) :
    (iblk m c 9 t : Vec Ideal S2x1 .f32) y = (V m c main_v9 : S2x1.Idx → EReal) y := by
  obtain ⟨e0, e1⟩ := idx_9 t
  unfold iblk
  rw [View.read_apply]
  show (V m c main_v9 : S2x1.Idx → EReal) _ = (V m c main_v9 : S2x1.Idx → EReal) _
  refine congrArg (V m c main_v9 : S2x1.Idx → EReal) ?_
  funext a; apply Fin.ext
  match a with
  | ⟨0, _⟩ => show win0_9.index t (0 : Fin 2) * 2 + 1 * (y 0).val = (y 0).val; rw [e0]; omega
  | ⟨1, _⟩ => show win0_9.index t (1 : Fin 2) * 1 + 1 * (y 1).val = (y 1).val; rw [e1]; omega

theorem blk_10 (c : Dev nD) (t : Fin cfg0.N) (y : S32x1.Idx) :
    (iblk m c 10 t : Vec Ideal S32x1 .f32) y = (V m c main_v10 : S32x1.Idx → EReal) y := by
  obtain ⟨e0, e1⟩ := idx_10 t
  unfold iblk
  rw [View.read_apply]
  show (V m c main_v10 : S32x1.Idx → EReal) _ = (V m c main_v10 : S32x1.Idx → EReal) _
  refine congrArg (V m c main_v10 : S32x1.Idx → EReal) ?_
  funext a; apply Fin.ext
  match a with
  | ⟨0, _⟩ => show win0_10.index t (0 : Fin 2) * 32 + 1 * (y 0).val = (y 0).val; rw [e0]; omega
  | ⟨1, _⟩ => show win0_10.index t (1 : Fin 2) * 1 + 1 * (y 1).val = (y 1).val; rw [e1]; omega

theorem blk_11 (c : Dev nD) (t : Fin cfg0.N) (y : S32x1.Idx) :
    (iblk m c 11 t : Vec Ideal S32x1 .f32) y = (V m c main_v11 : S32x1.Idx → EReal) y := by
  obtain ⟨e0, e1⟩ := idx_11 t
  unfold iblk
  rw [View.read_apply]
  show (V m c main_v11 : S32x1.Idx → EReal) _ = (V m c main_v11 : S32x1.Idx → EReal) _
  refine congrArg (V m c main_v11 : S32x1.Idx → EReal) ?_
  funext a; apply Fin.ext
  match a with
  | ⟨0, _⟩ => show win0_11.index t (0 : Fin 2) * 32 + 1 * (y 0).val = (y 0).val; rw [e0]; omega
  | ⟨1, _⟩ => show win0_11.index t (1 : Fin 2) * 1 + 1 * (y 1).val = (y 1).val; rw [e1]; omega

theorem blk_12 (c : Dev nD) (t : Fin cfg0.N) (y : S1x1.Idx) :
    (iblk m c 12 t : Vec Ideal S1x1 .f32) y = (V m c main_v12 : S1x1.Idx → EReal) y := by
  obtain ⟨e0, e1⟩ := idx_12 t
  unfold iblk
  rw [View.read_apply]
  show (V m c main_v12 : S1x1.Idx → EReal) _ = (V m c main_v12 : S1x1.Idx → EReal) _
  refine congrArg (V m c main_v12 : S1x1.Idx → EReal) ?_
  funext a; apply Fin.ext
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

theorem blk_13 (c : Dev nD) (t : Fin cfg0.N) (y : S2x1.Idx) :
    (iblk m c 13 t : Vec Ideal S2x1 .f32) y = (V m c main_v13 : S2x1.Idx → EReal) y := by
  obtain ⟨e0, e1⟩ := idx_13 t
  unfold iblk
  rw [View.read_apply]
  show (V m c main_v13 : S2x1.Idx → EReal) _ = (V m c main_v13 : S2x1.Idx → EReal) _
  refine congrArg (V m c main_v13 : S2x1.Idx → EReal) ?_
  funext a; apply Fin.ext
  match a with
  | ⟨0, _⟩ => show win0_13.index t (0 : Fin 2) * 2 + 1 * (y 0).val = (y 0).val; rw [e0]; omega
  | ⟨1, _⟩ => show win0_13.index t (1 : Fin 2) * 1 + 1 * (y 1).val = (y 1).val; rw [e1]; omega

/-! ## The blocks as the specification's coordinates -/

/-- Lane `q` of the input block at point `t` is the sample's row of the input. -/
theorem col_x (c : Dev nD) (t : Fin cfg0.N) (q : Fin 8192) :
    (fun (k : Fin 2) => (iblk m c 0 t : Vec Ideal S2x8192 .f32) (ix2 k q)) = rowAt (m ((c : Thread nD τ).loc main_arg0)) (lane t q) :=
  funext fun k => (blk_0 m c t k q).trans (V_v0 m c k (lane t q))

/-- Each weight block, read transposed, is the argument's matrix; -/
theorem mat_1 (c : Dev nD) (t : Fin cfg0.N) :
    (fun (k : Fin 2) (h : Fin 32) => (iblk m c 1 t : Vec Ideal S32x2 .f32) (ix2 h k)) = matOf (m ((c : Thread nD τ).loc main_arg1)) :=
  funext fun k => funext fun h => (blk_1 m c t (ix2 h k)).trans (V_v1 m c h k)
theorem mat_2 (c : Dev nD) (t : Fin cfg0.N) :
    (fun (k : Fin 32) (h : Fin 32) => (iblk m c 2 t : Vec Ideal S32x32 .f32) (ix2 h k)) = matOf (m ((c : Thread nD τ).loc main_arg2)) :=
  funext fun k => funext fun h => (blk_2 m c t (ix2 h k)).trans (V_v2 m c h k)
theorem mat_3 (c : Dev nD) (t : Fin cfg0.N) :
    (fun (k : Fin 32) (h : Fin 2) => (iblk m c 3 t : Vec Ideal S2x32 .f32) (ix2 h k)) = matOf (m ((c : Thread nD τ).loc main_arg3)) :=
  funext fun k => funext fun h => (blk_3 m c t (ix2 h k)).trans (V_v3 m c h k)
theorem mat_4 (c : Dev nD) (t : Fin cfg0.N) :
    (fun (k : Fin 2) (h : Fin 32) => (iblk m c 4 t : Vec Ideal S32x2 .f32) (ix2 h k)) = matOf (m ((c : Thread nD τ).loc main_arg4)) :=
  funext fun k => funext fun h => (blk_4 m c t (ix2 h k)).trans (V_v4 m c h k)
theorem mat_5 (c : Dev nD) (t : Fin cfg0.N) :
    (fun (k : Fin 32) (h : Fin 32) => (iblk m c 5 t : Vec Ideal S32x32 .f32) (ix2 h k)) = matOf (m ((c : Thread nD τ).loc main_arg5)) :=
  funext fun k => funext fun h => (blk_5 m c t (ix2 h k)).trans (V_v5 m c h k)
theorem mat_6 (c : Dev nD) (t : Fin cfg0.N) :
    (fun (k : Fin 32) (h : Fin 1) => (iblk m c 6 t : Vec Ideal S1x32 .f32) (ix2 h k)) = matOf (m ((c : Thread nD τ).loc main_arg6)) :=
  funext fun k => funext fun h => (blk_6 m c t (ix2 h k)).trans (V_v6 m c h k)

/-- each bias block, read off its column, is the argument's vector; -/
theorem vec_7 (c : Dev nD) (t : Fin cfg0.N) :
    (fun (h : Fin 32) => (iblk m c 7 t : Vec Ideal S32x1 .f32) (ix2 h 0)) = vecOf (m ((c : Thread nD τ).loc main_arg7)) :=
  funext fun h => (blk_7 m c t (ix2 h 0)).trans (V_v7 m c h)
theorem vec_8 (c : Dev nD) (t : Fin cfg0.N) :
    (fun (h : Fin 32) => (iblk m c 8 t : Vec Ideal S32x1 .f32) (ix2 h 0)) = vecOf (m ((c : Thread nD τ).loc main_arg8)) :=
  funext fun h => (blk_8 m c t (ix2 h 0)).trans (V_v8 m c h)
theorem vec_9 (c : Dev nD) (t : Fin cfg0.N) :
    (fun (h : Fin 2) => (iblk m c 9 t : Vec Ideal S2x1 .f32) (ix2 h 0)) = vecOf (m ((c : Thread nD τ).loc main_arg9)) :=
  funext fun h => (blk_9 m c t (ix2 h 0)).trans (V_v9 m c h)
theorem vec_10 (c : Dev nD) (t : Fin cfg0.N) :
    (fun (h : Fin 32) => (iblk m c 10 t : Vec Ideal S32x1 .f32) (ix2 h 0)) = vecOf (m ((c : Thread nD τ).loc main_arg10)) :=
  funext fun h => (blk_10 m c t (ix2 h 0)).trans (V_v10 m c h)
theorem vec_11 (c : Dev nD) (t : Fin cfg0.N) :
    (fun (h : Fin 32) => (iblk m c 11 t : Vec Ideal S32x1 .f32) (ix2 h 0)) = vecOf (m ((c : Thread nD τ).loc main_arg11)) :=
  funext fun h => (blk_11 m c t (ix2 h 0)).trans (V_v11 m c h)
theorem vec_12 (c : Dev nD) (t : Fin cfg0.N) :
    (fun (h : Fin 1) => (iblk m c 12 t : Vec Ideal S1x1 .f32) (ix2 h 0)) = vecOf (m ((c : Thread nD τ).loc main_arg12)) :=
  funext fun h => (blk_12 m c t (ix2 h 0)).trans (V_v12 m c h)

/-- and the floor's block is the floor. -/
theorem flo_13 (c : Dev nD) (t : Fin cfg0.N) :
    (fun (j : Fin 2) => (iblk m c 13 t : Vec Ideal S2x1 .f32) (ix2 j 0)) = fun _ => floorWord :=
  funext fun j => (blk_13 m c t (ix2 j 0)).trans (V_v13 m c j)

/-! ## What the region leaves in its output array -/

/-- The specification's result with samples along the lanes: entry `(j, n)` is coordinate `j` at sample `n`. -/
def resultT (c : Dev nD) : S2x1048576.Idx → EReal := fun i =>
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 (i 1) (i 0))

/-- WHAT POINT `t` WRITES BACK is block `t` of the transposed result. -/
theorem flushed_eq (c : Dev nD) (t : Fin cfg0.N) :
    (dats m 0 c).flushed 14 t = ((cfg0.win 14).blk t).view.read (Elt Ideal) (resultT m c) := by
  show (cfg0.win 14).cut (grid0.coords t) ((dats m 0 c).after 14 t) = _
  rw [after0_14]
  funext (y : S2x8192.Idx)
  obtain ⟨j, q, rfl⟩ : ∃ (j : Fin 2) (q : Fin 8192), y = ix2 j q := ⟨y 0, y 1, eq_ix2 y⟩
  have he : ((cfg0.win 14).blk t).view.emb (ix2 j q) = (ix2 j (lane t q) : S2x1048576.Idx) := by
    obtain ⟨e0, e1⟩ := idx_14 t
    funext a; apply Fin.ext
    match a with
    | ⟨0, _⟩ => show win0_14.index t (0 : Fin 2) * 2 + 1 * j.val = j.val; rw [e0]; omega
    | ⟨1, _⟩ => show win0_14.index t (1 : Fin 2) * 8192 + 1 * q.val = t.val * 8192 + q.val; rw [e1]; omega
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j q) = resultT m c (((cfg0.win 14).blk t).view.emb (ix2 j q))
  rw [he]
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j q).trans ?_
  rw [col_x m c t q, mat_1 m c t, mat_2 m c t, mat_3 m c t, mat_4 m c t, mat_5 m c t, mat_6 m c t, vec_7 m c t, vec_8 m c t,
    vec_9 m c t, vec_10 m c t, vec_11 m c t, vec_12 m c t, flo_13 m c t]
  rfl

/-- An index of the output array is in point `t`'s block iff each coordinate is in the block's range on its axis. -/
theorem mem_blk (t : Fin cfg0.N) (i : S2x1048576.Idx) :
    i ∈ ((cfg0.win 14).blk t).view.set ↔ ∀ a : Fin 2, win0_14.index t a * S2x8192.size a ≤ (i a).val ∧ (i a).val < win0_14.index t a * S2x8192.size a + S2x8192.size a := by
  show i ∈ ((View.whole main_v14).slice (win0_14.rect t)).set ↔ _
  rw [View.set_slice_whole, Rect.mem_set_unit]
  exact Iff.rfl

/-- Every index of the output array is in some point's block: lane `n` belongs to point `n / 8192`. -/
theorem covered (i : S2x1048576.Idx) :
    ∃ t : Fin cfg0.N, (cfg0.win 14).flush t = true ∧ i ∈ ((cfg0.win 14).blk t).view.set := by
  have hN : cfg0.N = 128 := N_0
  have h0 : (i 0).val < 2 := (i 0).isLt
  have h1 : (i 1).val < 1048576 := (i 1).isLt
  obtain ⟨t, ht⟩ : ∃ t : Fin cfg0.N, t.val = (i 1).val / 8192 := ⟨⟨(i 1).val / 8192, by omega⟩, rfl⟩
  obtain ⟨e0, e1⟩ := idx_14 t
  refine ⟨t, flush0_14 t, ?_⟩
  rw [mem_blk]
  intro a
  match a with
  | ⟨0, _⟩ =>
    show win0_14.index t (0 : Fin 2) * 2 ≤ (i 0).val ∧ (i 0).val < win0_14.index t (0 : Fin 2) * 2 + 2
    rw [e0]; omega
  | ⟨1, _⟩ =>
    show win0_14.index t (1 : Fin 2) * 8192 ≤ (i 1).val ∧ (i 1).val < win0_14.index t (1 : Fin 2) * 8192 + 8192
    rw [e1, ht]; omega

/-- THE OUTPUT ARRAY after the region is the transposed result (the blocks tile it). -/
theorem region_array (c : Dev nD) : (dats m 0 c).arrAt 14 cfg0.N = resultT m c :=
  (dats m 0 c).arrAt_eq_of_cover 14 (resultT m c) (fun t _ => flushed_eq m c t) covered

/-! ## What the program returns -/

/-- The host line after the region transposes the output array back: the program's result is the specification's. -/
theorem returned (c : Dev nD) :
    (Pipeline.afterTail₀ cfgs (dats m) 0 (V0 m) [hostOps1] c main_v15 : S1048576x2.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v15) = _
  after_results
  rw [(Pipeline.withArrays_arr spec0 launch0.win.arr_inj c _ _ 14).trans (region_array m c)]
  funext i
  obtain ⟨n, j, rfl⟩ : ∃ (n : Fin 1048576) (j : Fin 2), i = ix2 n j := ⟨i 0, i 1, eq_ix2 i⟩
  exact transpose_ix2_apply _ transposes_S2x1048576_S1048576x2_1_0 n j

/-- THE KERNEL'S RUN, read: every weakly fair execution terminates with the result array at the specification's result of
    the argument arrays, and the argument arrays unchanged. -/
theorem run : θ_run defs (onTc (τ := τ) (main (F := Ideal))) ⟨m, fun _ => 0, ρ⟩ fun r => ∀ c : Dev nD,
      r.2.mem ((c.tc : Thread nD τ).loc main_v15) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v15 (Pipeline.mem_restRefs_of main_v15 (by decide) (by decide))).trans (returned m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.Damping.Kern

end
-- ==== Proof.lean ====
/-
  The damping map `D = L Lᵀ x`, kernel against reference, on the extended reals.

  For each of 1048576 samples `x = (x₀, x₁)` two small perceptrons (two `tanh` layers of 32 units and an affine read-out
  each) give the entries of a lower-triangular factor `L = [[a, 0], [c, b]]`: the diagonal is `(max d 0 + δ) · x` of
  the first perceptron's two read-outs `d`, the off-diagonal entry is the second perceptron's one read-out; the result
  is `L Lᵀ x = (a·a·x₀ + a·c·x₁ , a·c·x₀ + (c·c + b·b)·x₁)` (Proof/Sample.lean).

  The reference computes it on the arrays as given, one sample per row, activations times weights (Proof/RefSample.lean).
  The kernel works on the transposed layout, one sample per lane in blocks of 8192 lanes, with every weight matrix
  transposed and every product written weights times activations, the operands rounded to a narrower format first
  (Proof/Layers.lean, Proof/Body.lean); its blocks tile the transposed result, which one host line transposes back
  (Proof/Region.lean). On the extended reals the roundings are the identity and the two arrangements of each layer's
  sum differ only in the order of the factors of each product, which commute: the two programs end with the same array,
  for any contents of the arguments — the sums, products, maxima and `tanh` involved are the same expressions on both
  sides, so no entry has to be finite. The kernel's idealization rewrote nothing, so there is nothing to preserve.
-/
import proofs.«177417_j82884278878217_1_alg».proof.Defs
import proofs.«177417_j82884278878217_1_alg».proof.Proof.Gen.Kernel
import proofs.«177417_j82884278878217_1_alg».proof.Proof.Gen.Kernel.Skeleton
import proofs.«177417_j82884278878217_1_alg».proof.Proof.Gen.Kernel.Launch
import proofs.«177417_j82884278878217_1_alg».proof.Proof.Gen.Kernel.Points
import proofs.«177417_j82884278878217_1_alg».proof.Proof.Gen.Kernel.Frame
import proofs.«177417_j82884278878217_1_alg».proof.Proof.Gen.KernelIdeal
import proofs.«177417_j82884278878217_1_alg».proof.Proof.Gen.KernelIdeal.Skeleton
import proofs.«177417_j82884278878217_1_alg».proof.Proof.Gen.KernelIdeal.Launch
import proofs.«177417_j82884278878217_1_alg».proof.Proof.Gen.KernelIdeal.Points
import proofs.«177417_j82884278878217_1_alg».proof.Proof.Gen.KernelIdeal.Frame
import proofs.«177417_j82884278878217_1_alg».proof.Proof.Gen.ReferenceIdeal
import proofs.«177417_j82884278878217_1_alg».proof.Proof.Gen.Pre_finite_inputs
import proofs.«177417_j82884278878217_1_alg».proof.Proof.Gen.ReferenceIdeal.Run
import proofs.«177417_j82884278878217_1_alg».proof.Proof.Gen.ReferenceIdeal.Read
import proofs.«177417_j82884278878217_1_alg».proof.Proof.RefSample
import proofs.«177417_j82884278878217_1_alg».proof.Proof.Region
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the specification's result of those
    arguments in their result arrays. -/
theorem algebraic : Cert.algebraic_KernelIdeal_ReferenceIdeal := by
  intro m ρ m' ρ' _ hagree
  refine ⟨fun c => Cert.Damping.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.Damping.Kern.run m ρ, ?_⟩
  refine (θ_run Cert.ReferenceIdeal.defs _ _).mono (fun _ h c => ⟨(h c).1.trans ?_, (h c).2⟩) (Cert.Damping.Ref.run m' ρ')
  obtain ⟨a0, a1, a2, a3, a4, a5, a6, a7, a8, a9, a10, a11, a12⟩ := hagree c
  rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
